-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x16 : Shape := ⟨2, ![65536, 16]⟩
abbrev S4194304 : Shape := ⟨1, ![4194304]⟩
abbrev S_ : Shape := ⟨0, ![]⟩

class Facts : Prop where
  bcast_S_S65536x16 : S_.BroadcastsInDim S65536x16 (![] : Fin 0 → Fin S65536x16.rank)
  reducesTo_S65536x16_S_d0_1 : S65536x16.ReducesTo [0, 1] S_
  h_S_ : 0 < S_.numel
  bcast_S_S4194304 : S_.BroadcastsInDim S4194304 (![] : Fin 0 → Fin S4194304.rank)
  reducesTo_S4194304_S_d0 : S4194304.ReducesTo [0] S_

variable [Facts]

def fn {F : FTy → Type} [FloatOps F] (main_arg0 : FVec F S65536x16 .f32) (main_arg1 : FVec F S4194304 .f32) : IVec S_ 1 :=
  let main_v0 : FVec F S65536x16 .f32 := Host.absf main_arg0
  let main_cst : FVec F S_ .f32 := constant S_ .f32 0x7F800000#32
  let main_v1 : FVec F S65536x16 .f32 := broadcastInDim S65536x16 ![] bcast_S_S65536x16 main_cst
  let main_v2 : IVec S65536x16 1 := cmpf .olt main_v0 main_v1
  let main_c : IVec S_ 1 := constantI S_ 1 1#1
  let main_v3 : IVec S_ 1 := (fun x v => Host.reduce IntOp.andi x v reducesTo_S65536x16_S_d0_1 h_S_) main_v2 main_c
  let main_v4 : FVec F S4194304 .f32 := Host.absf main_arg1
  let main_cst_0 : FVec F S_ .f32 := constant S_ .f32 0x7F800000#32
  let main_v5 : FVec F S4194304 .f32 := broadcastInDim S4194304 ![] bcast_S_S4194304 main_cst_0
  let main_v6 : IVec S4194304 1 := cmpf .olt main_v4 main_v5
  let main_c_1 : IVec S_ 1 := constantI S_ 1 1#1
  let main_v7 : IVec S_ 1 := (fun x v => Host.reduce IntOp.andi x v reducesTo_S4194304_S_d0 h_S_) main_v6 main_c_1
  let main_v8 : IVec S_ 1 := andi main_v3 main_v7
  main_v8
-- ==== Kernel.lean ====
abbrev S65536x16 : Shape := ⟨2, ![65536, 16]⟩
abbrev S4194304 : Shape := ⟨1, ![4194304]⟩
abbrev S4096x256 : Shape := ⟨2, ![4096, 256]⟩
abbrev S4194304x16 : Shape := ⟨2, ![4194304, 16]⟩
abbrev S1024 : Shape := ⟨1, ![1024]⟩
abbrev S1024x16 : Shape := ⟨2, ![1024, 16]⟩
abbrev S1024x1 : Shape := ⟨2, ![1024, 1]⟩
abbrev S1024x256 : Shape := ⟨2, ![1024, 256]⟩
abbrev S1x512 : Shape := ⟨2, ![1, 512]⟩
abbrev S512x256 : Shape := ⟨2, ![512, 256]⟩
abbrev S1024x512 : Shape := ⟨2, ![1024, 512]⟩

abbrev nBuf : Space → Nat
  | .hbm => 5
  | .vmem => 5
  | .smem => 0
  | _ => 0

abbrev bufTy : (tb : Table) → Fin (tcTables nBuf tb) → BufTy
  | .hbm, ⟨0, _⟩ => ⟨S65536x16, .f32⟩
  | .hbm, ⟨1, _⟩ => ⟨S4194304, .f32⟩
  | .hbm, ⟨2, _⟩ => ⟨S4096x256, .f32⟩
  | .hbm, ⟨3, _⟩ => ⟨S4096x256, .bf16⟩
  | .hbm, ⟨4, _⟩ => ⟨S4194304x16, .f32⟩
  | .local _ .vmem, ⟨0, _⟩ => ⟨S1024, .f32⟩
  | .local _ .vmem, ⟨1, _⟩ => ⟨S1024, .f32⟩
  | .local _ .vmem, ⟨2, _⟩ => ⟨S4096x256, .bf16⟩
  | .local _ .vmem, ⟨3, _⟩ => ⟨S1024x16, .f32⟩
  | .local _ .vmem, ⟨4, _⟩ => ⟨S1024x16, .f32⟩
  | _, _ => ⟨S65536x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4096], ![false]⟩

@[reducible] def k0_t1_loop : Scf.Loop 32 :=
  let c0_i32_7 : BitVec 32 := 0#32
  let c8_i32 : BitVec 32 := 8#32
  let v31 : BitVec 32 := Scalar.addi c0_i32_7 c8_i32
  let c1_i32_8 : BitVec 32 := 1#32
  ⟨c0_i32_7, v31, c1_i32_8⟩
def k0_mult1 (k0_t1 : Fin k0_t1_loop.trips) : BitVec 32 :=
  let c0_i32_7 : BitVec 32 := 0#32
  let c1_i32_8 : BitVec 32 := 1#32
  let arg4 : BitVec 32 := Scf.iv c0_i32_7 c1_i32_8 k0_t1
  let c512_i32 : BitVec 32 := 512#32
  let v302 : BitVec 32 := Scalar.muli arg4 c512_i32
  v302
def k0_off1 (k0_t1 : Fin k0_t1_loop.trips) : Fin 2 → Nat :=
  let c0_i32_7 : BitVec 32 := 0#32
  let c1_i32_8 : BitVec 32 := 1#32
  let arg4 : BitVec 32 := Scf.iv c0_i32_7 c1_i32_8 k0_t1
  let c512_i32 : BitVec 32 := 512#32
  let v302 : BitVec 32 := Scalar.muli arg4 c512_i32
  let v303 : BitVec 32 := v302
  let v307 : Index := Scalar.indexCast v303
  let c0_36 : Index := 0#32
  ![v307.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S65536x16_S4096x256 : S65536x16.ShapeCasts S4096x256
  bitsLt_bf16_f32 : FTy.bits .bf16 < FTy.bits .f32
  inb_S1024_S1024_0 : ∀ a, (![0] : Fin 1 → Nat) a + S1024.size a ≤ S1024.size a
  h_S1024 : 0 < S1024.numel
  shapeCasts_S1024_S1024x1 : S1024.ShapeCasts S1024x1
  iota_S1x512_d1_w32 : S1x512.Iotas .tc 32 [1]
  h_S512x256 : 0 < S512x256.numel
  shapeCasts_S512x256_S512x256 : S512x256.ShapeCasts S512x256
  broadcasts_S1024x1_S1024x512 : S1024x1.Broadcasts S1024x512
  broadcasts_S1x512_S1024x512 : S1x512.Broadcasts S1024x512
  natLt_1_32 : 1 < 32
  slices_S1024x256_o0_0_S1024x16 : S1024x256.Slices ![0, 0] S1024x16
  broadcasts_S1024x1_S1024x16 : S1024x1.Broadcasts S1024x16
  slices_S1024x256_o0_16_S1024x16 : S1024x256.Slices ![0, 16] S1024x16
  slices_S1024x256_o0_32_S1024x16 : S1024x256.Slices ![0, 32] S1024x16
  slices_S1024x256_o0_48_S1024x16 : S1024x256.Slices ![0, 48] S1024x16
  slices_S1024x256_o0_64_S1024x16 : S1024x256.Slices ![0, 64] S1024x16
  slices_S1024x256_o0_80_S1024x16 : S1024x256.Slices ![0, 80] S1024x16
  slices_S1024x256_o0_96_S1024x16 : S1024x256.Slices ![0, 96] S1024x16
  slices_S1024x256_o0_112_S1024x16 : S1024x256.Slices ![0, 112] S1024x16
  slices_S1024x256_o0_128_S1024x16 : S1024x256.Slices ![0, 128] S1024x16
  slices_S1024x256_o0_144_S1024x16 : S1024x256.Slices ![0, 144] S1024x16
  slices_S1024x256_o0_160_S1024x16 : S1024x256.Slices ![0, 160] S1024x16
  slices_S1024x256_o0_176_S1024x16 : S1024x256.Slices ![0, 176] S1024x16
  slices_S1024x256_o0_192_S1024x16 : S1024x256.Slices ![0, 192] S1024x16
  slices_S1024x256_o0_208_S1024x16 : S1024x256.Slices ![0, 208] S1024x16
  slices_S1024x256_o0_224_S1024x16 : S1024x256.Slices ![0, 224] S1024x16
  slices_S1024x256_o0_240_S1024x16 : S1024x256.Slices ![0, 240] S1024x16
  inb_S1024x16_S1024x16_0_0 : ∀ a, (![0, 0] : Fin 2 → Nat) a + S1024x16.size a ≤ S1024x16.size a
  h_S1024x16 : 0 < S1024x16.numel
  dot_S1024x512_S512x256_S1024x256_1_0_0_1_n_n_wf : DotDims.WF S1024x512 S512x256 S1024x256 [1] [0] [0] [1] [] []
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S512x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S4194304.size a
  hwx0_0 : ∀ i : grid0.Coords, EltTy.bits .f32 = 32 ∨ (Rect.block (s := S4194304) S1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x256.size a
  hwx0_1 : ∀ i : grid0.Coords, EltTy.bits .bf16 = 32 ∨ (Rect.block (s := S4096x256) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4194304x16.size a
  hwx0_2 : ∀ i : grid0.Coords, EltTy.bits .f32 = 32 ∨ (Rect.block (s := S4194304x16) S1024x16.size (cc0_transform_2 i) (hinb0_2 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_arg1) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x16 : Shape := ⟨2, ![65536, 16]⟩
abbrev S4194304 : Shape := ⟨1, ![4194304]⟩
abbrev S_ : Shape := ⟨0, ![]⟩
abbrev S4194304x1 : Shape := ⟨2, ![4194304, 1]⟩
abbrev S4194304x16 : Shape := ⟨2, ![4194304, 16]⟩

abbrev nBuf : Space → Nat
  | .hbm => 55
  | .vmem => 0
  | .smem => 0
  | _ => 0

abbrev bufTy : (tb : Table) → Fin (tcTables nBuf tb) → BufTy
  | .hbm, ⟨0, _⟩ => ⟨S65536x16, .f32⟩
  | .hbm, ⟨1, _⟩ => ⟨S4194304, .f32⟩
  | .hbm, ⟨2, _⟩ => ⟨S_, .f32⟩
  | .hbm, ⟨3, _⟩ => ⟨S4194304, .f32⟩
  | .hbm, ⟨4, _⟩ => ⟨S4194304, .f32⟩
  | .hbm, ⟨5, _⟩ => ⟨S4194304, .f32⟩
  | .hbm, ⟨6, _⟩ => ⟨S_, .i32⟩
  | .hbm, ⟨7, _⟩ => ⟨S_, .i32⟩
  | .hbm, ⟨8, _⟩ => ⟨S_, .f32⟩
  | .hbm, ⟨9, _⟩ => ⟨S4194304, .f32⟩
  | .hbm, ⟨10, _⟩ => ⟨S4194304, .f32⟩
  | .hbm, ⟨11, _⟩ => ⟨S_, .f32⟩
  | .hbm, ⟨12, _⟩ => ⟨S4194304, .f32⟩
  | .hbm, ⟨13, _⟩ => ⟨S4194304, .f32⟩
  | .hbm, ⟨14, _⟩ => ⟨S4194304, .i32⟩
  | .hbm, ⟨15, _⟩ => ⟨S_, .i32⟩
  | .hbm, ⟨16, _⟩ => ⟨S4194304, .i32⟩
  | .hbm, ⟨17, _⟩ => ⟨S4194304, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S4194304, .i32⟩
  | .hbm, ⟨22, _⟩ => ⟨S4194304, .i32⟩
  | .hbm, ⟨23, _⟩ => ⟨S_, .i32⟩
  | .hbm, ⟨24, _⟩ => ⟨S4194304, .i32⟩
  | .hbm, ⟨25, _⟩ => ⟨S4194304, .i32⟩
  | .hbm, ⟨26, _⟩ => ⟨S4194304, .f32⟩
  | .hbm, ⟨27, _⟩ => ⟨S4194304, .f32⟩
  | .hbm, ⟨28, _⟩ => ⟨S4194304x1, .f32⟩
  | .hbm, ⟨29, _⟩ => ⟨S_, .i32⟩
  | .hbm, ⟨30, _⟩ => ⟨S4194304, .i32⟩
  | .hbm, ⟨31, _⟩ => ⟨S4194304, .i1⟩
  | .hbm, ⟨32, _⟩ => ⟨S_, .i32⟩
  | .hbm, ⟨33, _⟩ => ⟨S4194304, .i32⟩
  | .hbm, ⟨34, _⟩ => ⟨S4194304, .i32⟩
  | .hbm, ⟨35, _⟩ => ⟨S4194304, .i32⟩
  | .hbm, ⟨36, _⟩ => ⟨S4194304x1, .i32⟩
  | .hbm, ⟨37, _⟩ => ⟨S4194304x16, .f32⟩
  | .hbm, ⟨38, _⟩ => ⟨S_, .f32⟩
  | .hbm, ⟨39, _⟩ => ⟨S4194304x1, .f32⟩
  | .hbm, ⟨40, _⟩ => ⟨S4194304x1, .f32⟩
  | .hbm, ⟨41, _⟩ => ⟨S4194304x16, .f32⟩
  | .hbm, ⟨42, _⟩ => ⟨S4194304x16, .f32⟩
  | .hbm, ⟨43, _⟩ => ⟨S_, .i32⟩
  | .hbm, ⟨44, _⟩ => ⟨S4194304, .i32⟩
  | .hbm, ⟨45, _⟩ => ⟨S4194304, .i1⟩
  | .hbm, ⟨46, _⟩ => ⟨S_, .i32⟩
  | .hbm, ⟨47, _⟩ => ⟨S4194304, .i32⟩
  | .hbm, ⟨48, _⟩ => ⟨S4194304, .i32⟩
  | .hbm, ⟨49, _⟩ => ⟨S4194304, .i32⟩
  | .hbm, ⟨50, _⟩ => ⟨S4194304x1, .i32⟩
  | .hbm, ⟨51, _⟩ => ⟨S4194304x16, .f32⟩
  | .hbm, ⟨52, _⟩ => ⟨S4194304x16, .f32⟩
  | .hbm, ⟨53, _⟩ => ⟨S4194304x16, .f32⟩
  | .hbm, ⟨54, _⟩ => ⟨S4194304x16, .f32⟩
  | _, _ => ⟨S65536x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v3 : Ref sig .tc := ⟨.hbm, 13, rfl⟩
abbrev main_v4 : Ref sig .tc := ⟨.hbm, 14, rfl⟩
abbrev main_c_1 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_c_3 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_v11 : Ref sig .tc := ⟨.hbm, 30, rfl⟩
abbrev main_v12 : Ref sig .tc := ⟨.hbm, 31, rfl⟩
abbrev main_c_5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_6 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_7 : Ref sig .tc := ⟨.hbm, 43, rfl⟩
abbrev main_v22 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩

abbrev nD : Nat := 1
abbrev τ : Topo := Topo.v7x

variable {F : FTy → Type} [FloatOps F]

class Facts₀ : Prop where
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S4194304x1_S4194304x16_0_1 : S4194304x1.BroadcastsInDim S4194304x16 (![0, 1] : Fin 2 → Fin S4194304x16.rank)
  gather_S65536x16_S4194304x1_S4194304x16_1_0_n_n_0_1_116_wf : GatherDims.WF S65536x16 S4194304x1 S4194304x16 [1] [0] [] [0] [] 1 ![1, 16]

variable [Facts₀]

def gather_S65536x16_S4194304x1_S4194304x16_1_0_n_n_0_1_116 : GatherDims S65536x16 S4194304x1 S4194304x16 where
  offsetDims := [1]
  collapsedSliceDims := [0]
  operandBatchingDims := []
  startIndicesBatchingDims := []
  startIndexMap := [0]
  indexVectorDim := 1
  sliceSizes := ![1, 16]
  wf := gather_S65536x16_S4194304x1_S4194304x16_1_0_n_n_0_1_116_wf

class Facts : Prop extends Facts₀ where

variable [Facts]
-- ==== Proof.Finite.lean ====
/-
  From the finiteness predicate to real entries.

  The predicate is: every entry of each array has absolute value strictly below +∞, the two
  conjunctions over all entries joined by one more "and". On the extended reals |x| = max x (-x), and
  |x| < ⊤ excludes exactly x = ⊤ and x = ⊥ (for which |x| = ⊤). What is left is a real number.
-/
import proofs.«109323_j37383395344605_2_alg».proof.Proof.Gen.Pre_finite_inputs
import Idealize.ShloMosaic.Lib.ReduceAll
import Idealize.ShloMosaic.Lib.ValueIdx
import Idealize.ShloMosaic.PureOps.Ideal

noncomputable section

namespace Cert.Sampler.Finite

open Idealize.ShloMosaic Idealize.ShloMosaic.ValueIdx

/-- The scalar shape has one index. -/
instance subsingleton_scalar_idx : Subsingleton Cert.Pre_finite_inputs.S_.Idx :=
  ⟨fun a b => funext fun d => d.elim0⟩

/-- The f32 word 0x7F800000 denotes +∞. -/
theorem ofBits_inf : Ideal.ofBits .f32 0x7F800000#32 = (⊤ : EReal) := by
  simp [Ideal.ofBits, Ideal.ieee]

/-- An extended real whose absolute value compares strictly below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the finiteness predicate every entry of both arrays is a real number. -/
theorem finite_of_pre [Cert.Pre_finite_inputs.Facts]
    (x0 : FVec Ideal Cert.Pre_finite_inputs.S65536x16 .f32) (x1 : FVec Ideal Cert.Pre_finite_inputs.S4194304 .f32)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  refine ⟨fun i => ?_, fun i => ?_⟩
  · have e := Host.reduce_andi_all _ _ _ _ _ ha i
    exact real_of_abs_lt_inf (x0 i) e
  · have e := Host.reduce_andi_all _ _ _ _ _ hb i
    exact real_of_abs_lt_inf (x1 i) e

end Cert.Sampler.Finite

end
-- ==== Proof.Consts.lean ====
/-
  The float words the two programs spell, as the numbers they denote: `0x477FFF00` is `65535` and `0x3F800000` is `1`.
-/
import Idealize.ShloMosaic.PureOps.Ideal

noncomputable section

namespace Cert.Sampler

open Idealize.ShloMosaic

/-- The word `0x477FFF00` denotes `65535`. -/
theorem ofBits_65535 : Ideal.ofBits .f32 0x477FFF00#32 = ((65535 : ℝ) : EReal) := by
  simp [Ideal.ofBits, Ideal.ieee, -EReal.coe_mul]; norm_num

/-- The word `0x3F800000` denotes `1`. -/
theorem ofBits_one : Ideal.ofBits .f32 0x3F800000#32 = 1 := by
  simp [Ideal.ofBits, Ideal.ieee, -EReal.coe_mul]; norm_num

end Cert.Sampler

end
-- ==== Proof.Spec.lean ====
/-
  A one-dimensional linear texture fetch, as one function of the two argument arrays.

  The texture `X` has 65536 rows of 16 channels; a sample with coordinate `x` is scaled to `t = 65535 · x`,
  its left texel is `i₀ = clip ⌊t⌋` into [0, 65535], its right texel `i₁ = clip (i₀ + 1)`, its weight `w = t − i₀`,
  and the fetched value is `X[i₀] · (1 − w) + X[i₁] · w`, channel by channel.

  Also here: the scalar facts the two programs' agreement rests on.  For a finite coordinate the clipped floor is a
  natural number at most 65535, so both texel words are small non-negative numbers; clamping `t` from above at 65535
  before taking the floor changes neither texel; and where the clamp is active (`t > 65535`) both texels are the last
  row, so the blend `a · (1 − w) + a · w` is `a` whatever the finite weight `w` is.
-/
import Idealize.ShloMosaic.PureOps.Ideal
import Idealize.ShloMosaic.PureOps.Ideal.Laws
import Idealize.ShloMosaic.Lib.ValueIdx
import proofs.«109323_j37383395344605_2_alg».proof.Proof.Consts

noncomputable section

namespace Cert.Sampler

open Idealize.ShloMosaic Idealize.ShloMosaic.ValueIdx

/-- The sample coordinates, the texture, the result. -/
abbrev SU : Shape := ⟨1, ![4194304]⟩
abbrev SX : Shape := ⟨2, ![65536, 16]⟩
abbrev SO : Shape := ⟨2, ![4194304, 16]⟩

/-! ## The fetch -/

/-- The scaled coordinate `t = x · 65535`. -/
def tco (x : EReal) : EReal := x * ((65535 : ℝ) : EReal)

/-- The floor of the scaled coordinate clipped into `[0, 65535]`. -/
def cfl (x : EReal) : EReal := min ((65535 : ℝ) : EReal) (max 0 (Ideal.liftRound Int.floor (tco x)))

/-- The left texel, as a 32-bit word. -/
def i0w (x : EReal) : BitVec 32 := Ideal.fptosi 32 (cfl x)

/-- The right texel: the left one plus one, clipped into `[0, 65535]` as signed words. -/
def i1w (x : EReal) : BitVec 32 := IntOp.minsi 65535#32 (IntOp.maxsi 0#32 (IntOp.addi (i0w x) 1#32))

/-- The weight of the right texel. -/
def wgt (x : EReal) : EReal := tco x - (((i0w x).toInt : ℝ) : EReal)

/-- The texture row a word names. -/
def rowOf (b : BitVec 32) : Fin 65536 := ⟨b.toNat % 65536, Nat.mod_lt _ (by decide)⟩

/-- THE FETCH: channel `j 1` of sample `j 0`. -/
def G (X : SX.Idx → EReal) (P : SU.Idx → EReal) : SO.Idx → EReal := fun j =>
  X (ix2 (rowOf (i0w (P (ix1 (j 0))))) (j 1)) * (1 - wgt (P (ix1 (j 0))))
    + X (ix2 (rowOf (i1w (P (ix1 (j 0))))) (j 1)) * wgt (P (ix1 (j 0)))

/-! ## The same with the coordinate clamped from above first -/

/-- The scaled coordinate clamped at `65535`. -/
def tcoK (x : EReal) : EReal := min (tco x) ((65535 : ℝ) : EReal)

/-- Its clipped floor. -/
def cflK (x : EReal) : EReal := min ((65535 : ℝ) : EReal) (max 0 (Ideal.liftRound Int.floor (tcoK x)))

/-- The weight computed from the clamped coordinate. -/
def wgtK (x : EReal) : EReal := tcoK x - (((i0w x).toInt : ℝ) : EReal)

/-! ## Scalar facts at a finite coordinate -/

/-- The embedding of the reals is monotone, so it commutes with `max` and `min`. -/
theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- The left texel of a finite coordinate, as a natural number. -/
def nIdx (r : ℝ) : ℕ := (min (65535 : ℤ) (max 0 ⌊r * 65535⌋)).toNat

theorem nIdx_le (r : ℝ) : nIdx r ≤ 65535 := by
  unfold nIdx; omega

theorem nIdx_cast (r : ℝ) : ((nIdx r : ℕ) : ℤ) = min (65535 : ℤ) (max 0 ⌊r * 65535⌋) := by
  unfold nIdx; omega

theorem tco_coe (r : ℝ) : tco (r : EReal) = ((r * 65535 : ℝ) : EReal) := by
  unfold tco; rw [EReal.coe_mul]

theorem cfl_coe (r : ℝ) : cfl (r : EReal) = ((nIdx r : ℝ) : EReal) := by
  unfold cfl
  rw [tco_coe, Ideal.liftRound_coe, ← EReal.coe_zero, ← coe_max, ← coe_min]
  congr 1
  have h := nIdx_cast r
  have : ((nIdx r : ℕ) : ℝ) = (((nIdx r : ℕ) : ℤ) : ℝ) := by push_cast; rfl
  rw [this, h]; push_cast; rfl

/-- A small natural number read as a signed 32-bit word is itself. -/
theorem toInt_small (n : ℕ) (h : n ≤ 65536) : (BitVec.ofNat 32 n).toInt = (n : ℤ) := by
  rw [BitVec.toInt_eq_toNat_cond, BitVec.toNat_ofNat]
  have h1 : n % 2 ^ 32 = n := Nat.mod_eq_of_lt (by omega)
  rw [h1]
  split
  · rfl
  · omega

theorem toNat_small (n : ℕ) (h : n ≤ 65536) : (BitVec.ofNat 32 n).toNat = n := by
  rw [BitVec.toNat_ofNat]; omega

/-- The left texel word of a finite coordinate. -/
theorem i0w_coe (r : ℝ) : i0w (r : EReal) = BitVec.ofNat 32 (nIdx r) := by
  unfold i0w
  rw [cfl_coe]
  unfold Ideal.fptosi
  rw [Ideal.toIntClamped_coe, if_pos (Nat.cast_nonneg _)]
  have hf : ⌊((nIdx r : ℕ) : ℝ)⌋ = ((nIdx r : ℕ) : ℤ) := Int.floor_natCast _
  rw [hf]
  have hle := nIdx_le r
  have hm : max (-((2 ^ (32 - 1) : ℕ) : ℤ)) (min (((2 ^ (32 - 1) : ℕ) : ℤ) - 1) ((nIdx r : ℕ) : ℤ)) = ((nIdx r : ℕ) : ℤ) := by
    norm_num; omega
  rw [hm]
  exact BitVec.ofInt_natCast _ _

/-- The right texel word of a finite coordinate. -/
theorem i1w_coe (r : ℝ) : i1w (r : EReal) = BitVec.ofNat 32 (min 65535 (nIdx r + 1)) := by
  have hle := nIdx_le r
  unfold i1w IntOp.addi IntOp.maxsi IntOp.minsi
  rw [i0w_coe, show (1#32 : BitVec 32) = BitVec.ofNat 32 1 from rfl, ← BitVec.ofNat_add]
  have e0 : (0#32 : BitVec 32).toInt = 0 := rfl
  have h0 : (BitVec.ofNat 32 (nIdx r + 1)).slt 0#32 = false := by
    rw [BitVec.slt, toInt_small (nIdx r + 1) (by omega), e0]; simp; omega
  rw [h0]
  simp only [Bool.false_eq_true, if_false]
  by_cases hn : nIdx r + 1 ≤ 65535
  · have h1 : (65535#32 : BitVec 32).slt (BitVec.ofNat 32 (nIdx r + 1)) = false := by
      rw [BitVec.slt, toInt_small 65535 (by omega), toInt_small (nIdx r + 1) (by omega)]; simp; omega
    rw [h1, Nat.min_eq_right hn]; simp
  · have h1 : (65535#32 : BitVec 32).slt (BitVec.ofNat 32 (nIdx r + 1)) = true := by
      rw [BitVec.slt, toInt_small 65535 (by omega), toInt_small (nIdx r + 1) (by omega)]; simp; omega
    rw [h1, Nat.min_eq_left (by omega)]; simp

theorem i0w_toNat (r : ℝ) : (i0w (r : EReal)).toNat = nIdx r := by
  rw [i0w_coe, toNat_small _ (by have := nIdx_le r; omega)]

theorem i0w_toInt (r : ℝ) : (i0w (r : EReal)).toInt = (nIdx r : ℤ) := by
  rw [i0w_coe, toInt_small _ (by have := nIdx_le r; omega)]

theorem i1w_toNat (r : ℝ) : (i1w (r : EReal)).toNat = min 65535 (nIdx r + 1) := by
  rw [i1w_coe, toNat_small _ (by omega)]

theorem i1w_toInt (r : ℝ) : (i1w (r : EReal)).toInt = ((min 65535 (nIdx r + 1) : ℕ) : ℤ) := by
  rw [i1w_coe, toInt_small _ (by omega)]

theorem i0w_lt (r : ℝ) : (i0w (r : EReal)).toNat < 65536 := by
  rw [i0w_toNat]; have := nIdx_le r; omega

theorem i1w_lt (r : ℝ) : (i1w (r : EReal)).toNat < 65536 := by
  rw [i1w_toNat]; omega

/-- Clamping the scaled coordinate at `65535` before the floor does not move the clipped floor. -/
theorem cflK_coe (r : ℝ) : cflK (r : EReal) = ((nIdx r : ℝ) : EReal) := by
  unfold cflK tcoK
  rw [tco_coe, ← coe_min, Ideal.liftRound_coe, ← EReal.coe_zero, ← coe_max, ← coe_min]
  congr 1
  have h := nIdx_cast r
  have hc : ((nIdx r : ℕ) : ℝ) = (((nIdx r : ℕ) : ℤ) : ℝ) := by push_cast; rfl
  rw [hc, h]
  have key : min (65535 : ℤ) (max 0 ⌊min (r * 65535) 65535⌋) = min (65535 : ℤ) (max 0 ⌊r * 65535⌋) := by
    by_cases ht : r * 65535 ≤ 65535
    · rw [min_eq_left ht]
    · have ht' : (65535 : ℝ) ≤ r * 65535 := le_of_lt (not_le.mp ht)
      rw [min_eq_right ht']
      have e1 : ⌊(65535 : ℝ)⌋ = 65535 := by exact_mod_cast Int.floor_intCast (65535 : ℤ)
      have e2 : (65535 : ℤ) ≤ ⌊r * 65535⌋ := Int.le_floor.mpr (by exact_mod_cast ht')
      rw [e1]; omega
  rw [← key]; push_cast; rfl

theorem cflK_eq (r : ℝ) : cflK (r : EReal) = cfl (r : EReal) := by rw [cflK_coe, cfl_coe]

/-- The two weights of a finite coordinate, as real numbers. -/
theorem wgt_coe (r : ℝ) : wgt (r : EReal) = ((r * 65535 - (nIdx r : ℝ) : ℝ) : EReal) := by
  unfold wgt
  rw [tco_coe, i0w_toInt, EReal.coe_sub]; push_cast; rfl

theorem wgtK_coe (r : ℝ) : wgtK (r : EReal) = ((min (r * 65535) 65535 - (nIdx r : ℝ) : ℝ) : EReal) := by
  unfold wgtK tcoK
  rw [tco_coe, ← coe_min, i0w_toInt, EReal.coe_sub]; push_cast; rfl

/-- Past the last texel both texels are the last row. -/
theorem rows_eq_of_gt (r : ℝ) (ht : 65535 < r * 65535) : i1w (r : EReal) = i0w (r : EReal) ∧ nIdx r = 65535 := by
  have e2 : (65535 : ℤ) ≤ ⌊r * 65535⌋ := Int.le_floor.mpr (by exact_mod_cast le_of_lt ht)
  have hn : nIdx r = 65535 := by unfold nIdx; omega
  refine ⟨?_, hn⟩
  rw [i1w_coe, i0w_coe, hn]; rfl

/-- THE BLEND does not see the clamp: below the last texel the two weights agree, past it both texels are one finite
    value `a` and `a · (1 − w) + a · w = a` for every finite `w`. -/
theorem fetch_clamp (X : SX.Idx → EReal) (hX : ∀ i, ∃ q : ℝ, X i = (q : EReal)) (r : ℝ) (c : Fin 16) :
    X (ix2 (rowOf (i0w (r : EReal))) c) * (1 - wgtK (r : EReal)) + X (ix2 (rowOf (i1w (r : EReal))) c) * wgtK (r : EReal)
      = X (ix2 (rowOf (i0w (r : EReal))) c) * (1 - wgt (r : EReal)) + X (ix2 (rowOf (i1w (r : EReal))) c) * wgt (r : EReal) := by
  by_cases ht : r * 65535 ≤ 65535
  · have : wgtK (r : EReal) = wgt (r : EReal) := by rw [wgtK_coe, wgt_coe, min_eq_left ht]
    rw [this]
  · obtain ⟨hrow, hn⟩ := rows_eq_of_gt r (not_le.mp ht)
    rw [hrow]
    obtain ⟨a, ha⟩ := hX (ix2 (rowOf (i0w (r : EReal))) c)
    rw [ha, wgtK_coe, wgt_coe, min_eq_right (le_of_lt (not_le.mp ht)), hn]
    rw [← EReal.coe_one, ← EReal.coe_sub, ← EReal.coe_sub, ← EReal.coe_mul, ← EReal.coe_mul, ← EReal.coe_mul, ← EReal.coe_mul,
      ← EReal.coe_add, ← EReal.coe_add]
    congr 1
    push_cast; ring

end Cert.Sampler

end
-- ==== Proof.RefIsG.lean ====
/-
  The reference program, read at one result index, is the fetch of the specification.

  The program scales each coordinate, floors and clips it to the left texel word, adds one and clips again
  for the right texel word, forms the weight, gathers the two texture rows, and blends them. Every stage but the
  two gathers reads one element of each operand; composing the stages at sample u gives the scalar
  functions of the specification at the coordinate of u. A gather of whole rows reads, at (u, c), channel c of the row
  named by the start index of sample u, read as a signed number and clamped into [0, 65535]. Both texel words are
  non-negative and below 65536 at a finite coordinate, so the "negative index wraps around" select keeps the
  word, the clamp is idle, and the row is the word itself.
-/
import proofs.«109323_j37383395344605_2_alg».proof.Proof.Gen.ReferenceIdeal.Read
import proofs.«109323_j37383395344605_2_alg».proof.Proof.Spec
import Idealize.ShloMosaic.Lib.ValueIdx
import Idealize.ShloMosaic.Lib.Affine

noncomputable section

namespace Cert.Sampler.Ref

open Idealize.ShloMosaic Idealize.ShloMosaic.ValueIdx Cert.ReferenceIdeal Cert.Sampler

/-! ## The gather of whole rows at an index -/

/-- The gather of whole rows read at (u, c): channel c of the row whose number is the start index of sample u,
    read signed and clamped into [0, 65535]. -/
theorem gather_row_apply [Facts₀] {α : Type} {w : Nat} (x : S65536x16.Idx → α) (idx : IVec S4194304x1 w)
    (u : Fin 4194304) (c : Fin 16) :
    Host.gather gather_S65536x16_S4194304x1_S4194304x16_1_0_n_n_0_1_116 x idx (ix2 u c)
      = x (ix2 (⟨min (idx (ix2 u (0 : Fin 1))).toInt.toNat 65535, by omega⟩ : Fin 65536) c) := by
  unfold Host.gather
  congr 1
  funext a
  refine Fin.ext ?_
  have hsi : (gather_S65536x16_S4194304x1_S4194304x16_1_0_n_n_0_1_116).siIdx (ix2 u c)
      ⟨List.idxOf (0 : Fin 2) (gather_S65536x16_S4194304x1_S4194304x16_1_0_n_n_0_1_116).startIndexMap,
        List.idxOf_lt_length_iff.2 (List.mem_singleton.mpr rfl)⟩ = ix2 u (0 : Fin 1) := by
    funext b; refine Fin.ext ?_
    match b with
    | ⟨0, _⟩ => rfl
    | ⟨1, _⟩ => rfl
  match a with
  | ⟨0, _⟩ =>
    show (gather_S65536x16_S4194304x1_S4194304x16_1_0_n_n_0_1_116).start (ix2 u c) idx 0
      + (gather_S65536x16_S4194304x1_S4194304x16_1_0_n_n_0_1_116).batchCoord (ix2 u c) 0
      + (gather_S65536x16_S4194304x1_S4194304x16_1_0_n_n_0_1_116).offCoord (ix2 u c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S65536x16_S4194304x1_S4194304x16_1_0_n_n_0_1_116).startIndexMap
      from List.mem_singleton.mpr rfl)]
    rw [hsi]
    rfl
  | ⟨1, _⟩ =>
    show (gather_S65536x16_S4194304x1_S4194304x16_1_0_n_n_0_1_116).start (ix2 u c) idx 1
      + (gather_S65536x16_S4194304x1_S4194304x16_1_0_n_n_0_1_116).batchCoord (ix2 u c) 1
      + (gather_S65536x16_S4194304x1_S4194304x16_1_0_n_n_0_1_116).offCoord (ix2 u c) 1 = c.val
    rw [GatherDims.batchCoord_eq_zero _ _ _ List.not_mem_nil]
    unfold GatherDims.start
    rw [dif_neg (show ¬ (1 : Fin 2) ∈ (gather_S65536x16_S4194304x1_S4194304x16_1_0_n_n_0_1_116).startIndexMap
      from by show ¬ (1 : Fin 2) ∈ [0]; decide)]
    simp only [Nat.add_zero, Nat.zero_add]
    rfl

/-! ## Words: a small non-negative word is not negative, and names the row of its own number -/

/-- A word below 65536 read as a signed number is its unsigned number. -/
theorem toInt_of_lt (b : BitVec 32) (h : b.toNat < 65536) : b.toInt = (b.toNat : ℤ) :=
  BitVec.toInt_eq_toNat_of_lt (by omega)

/-- A word below 65536 is not negative. -/
theorem slt_zero_of_lt (b : BitVec 32) (h : b.toNat < 65536) : IntOp.cmpi .slt b 0#32 = 0#1 := by
  refine eq_zero_of_ne_one fun h1 => ?_
  rw [IntOp.cmpi_slt, toInt_of_lt b h, BitVec.toInt_zero] at h1
  omega

/-- The wrap-around select keeps a word below 65536. -/
theorem wrap_of_lt (b : BitVec 32) (h : b.toNat < 65536) :
    Scalar.select (IntOp.cmpi .slt b 0#32) (IntOp.addi b 65536#32) b = b := by
  rw [slt_zero_of_lt b h, select_zero]

/-- Clamping a word below 65536 into [0, 65535] as a signed number gives the row of its own number. -/
theorem row_of_lt (b : BitVec 32) (h : b.toNat < 65536) :
    (⟨min b.toInt.toNat 65535, by omega⟩ : Fin 65536) = rowOf b := by
  refine Fin.ext ?_
  show min b.toInt.toNat 65535 = b.toNat % 65536
  rw [toInt_of_lt b h, Int.toNat_natCast]
  omega

/-- The gather of whole rows at (u, c), when the start index of sample u is a word below 65536: channel c of the row
    of that word's own number. -/
theorem gather_row_of_lt [Facts₀] {α : Type} (x : S65536x16.Idx → α) (idx : IVec S4194304x1 32)
    (u : Fin 4194304) (c : Fin 16) (b : BitVec 32) (hb : idx (ix2 u (0 : Fin 1)) = b) (h : b.toNat < 65536) :
    Host.gather gather_S65536x16_S4194304x1_S4194304x16_1_0_n_n_0_1_116 x idx (ix2 u c) = x (ix2 (rowOf b) c) := by
  subst hb
  rw [gather_row_apply, row_of_lt _ h]

/-! ## The index maps of the layout stages -/

theorem idx_v10 (u : Fin 4194304) : Read.idx_main_v10 (ix2 u (0 : Fin 1)) = ix1 u := by
  funext a; match a with | ⟨0, _⟩ => rfl
theorem idx_v16 (u : Fin 4194304) : Read.idx_main_v16 (ix2 u (0 : Fin 1)) = ix1 u := by
  funext a; match a with | ⟨0, _⟩ => rfl
theorem idx_v27 (u : Fin 4194304) : Read.idx_main_v27 (ix2 u (0 : Fin 1)) = ix1 u := by
  funext a; match a with | ⟨0, _⟩ => rfl
theorem idx_v20 (u : Fin 4194304) (c : Fin 16) : Read.idx_main_v20 (ix2 u c) = ix2 u (0 : Fin 1) := by
  funext a; match a with | ⟨0, _⟩ => rfl | ⟨1, _⟩ => rfl
theorem idx_v29 (u : Fin 4194304) (c : Fin 16) : Read.idx_main_v29 (ix2 u c) = ix2 u (0 : Fin 1) := by
  funext a; match a with | ⟨0, _⟩ => rfl | ⟨1, _⟩ => rfl

/-! ## The stages of one sample -/

section Sample
variable (P : FVec Ideal S4194304 .f32) (i : S4194304.Idx)

/-- The scaled coordinate. -/
theorem v1_at : Read.val_main_v1 (F := Ideal) P i = tco (P i) := by
  rw [Read.val_main_v1_apply, Read.val_main_v0_apply, Read.val_main_cst_apply]
  show P i * Ideal.ofBits .f32 0x477FFF00#32 = _
  rw [ofBits_65535]; rfl

/-- The floor clipped into [0, 65535]. -/
theorem v3_at : Read.val_main_v3 (F := Ideal) P i = cfl (P i) := by
  rw [Read.val_main_v3_apply, Read.val_main_call0_v4_apply, Read.val_main_call0_v3_apply, Read.val_main_c_0_apply,
    Read.val_main_call0_v2_apply, Read.val_main_call0_v1_apply, Read.val_main_call0_v0_apply, Read.val_main_c_apply,
    Read.val_main_v2_apply, v1_at]
  show min ((((65535#32 : BitVec 32).toInt : ℝ)) : EReal) (max ((((0#32 : BitVec 32).toInt : ℝ)) : EReal)
    (Ideal.liftRound Int.floor (tco (P i)))) = _
  have h1 : (65535#32 : BitVec 32).toInt = 65535 := by decide
  have h0 : (0#32 : BitVec 32).toInt = 0 := by decide
  rw [h1, h0]
  unfold cfl
  norm_num

/-- The left texel word. -/
theorem v4_at : Read.val_main_v4 (F := Ideal) P i = i0w (P i) := by
  rw [Read.val_main_v4_apply, v3_at]; rfl

/-- The right texel word. -/
theorem v7_at : Read.val_main_v7 (F := Ideal) P i = i1w (P i) := by
  rw [Read.val_main_v7_apply, Read.val_main_call1_v4_apply, Read.val_main_call1_v3_apply, Read.val_main_c_3_apply,
    Read.val_main_call1_v2_apply, Read.val_main_call1_v1_apply, Read.val_main_call1_v0_apply, Read.val_main_c_2_apply,
    Read.val_main_v6_apply, Read.val_main_v5_apply, Read.val_main_c_1_apply, v4_at]
  rfl

/-- The weight. -/
theorem v9_at : Read.val_main_v9 (F := Ideal) P i = wgt (P i) := by
  rw [Read.val_main_v9_apply, Read.val_main_v8_apply, v1_at, v4_at]; rfl

/-- The left start index: the word itself when it is below 65536. -/
theorem v15_at (h : (i0w (P i)).toNat < 65536) : Read.val_main_v15 (F := Ideal) P i = i0w (P i) := by
  rw [Read.val_main_v15_apply, Read.val_main_v12_apply, Read.val_main_v14_apply, Read.val_main_v13_apply,
    Read.val_main_c_5_apply, Read.val_main_v11_apply, Read.val_main_c_4_apply, v4_at]
  exact wrap_of_lt _ h

/-- The right start index: the word itself when it is below 65536. -/
theorem v26_at (h : (i1w (P i)).toNat < 65536) : Read.val_main_v26 (F := Ideal) P i = i1w (P i) := by
  rw [Read.val_main_v26_apply, Read.val_main_v23_apply, Read.val_main_v25_apply, Read.val_main_v24_apply,
    Read.val_main_c_8_apply, Read.val_main_v22_apply, Read.val_main_c_7_apply, v7_at]
  exact wrap_of_lt _ h

end Sample

/-! ## The stages that read two coordinates -/

section Entry
variable (X : FVec Ideal S65536x16 .f32) (P : FVec Ideal S4194304 .f32) (u : Fin 4194304) (c : Fin 16)

/-- The weight as a column. -/
theorem v10_at : Read.val_main_v10 (F := Ideal) P (ix2 u (0 : Fin 1)) = wgt (P (ix1 u)) := by
  rw [Read.val_main_v10_apply, idx_v10, v9_at]

/-- The left start index as a column. -/
theorem v16_at (h : (i0w (P (ix1 u))).toNat < 65536) :
    Read.val_main_v16 (F := Ideal) P (ix2 u (0 : Fin 1)) = i0w (P (ix1 u)) := by
  rw [Read.val_main_v16_apply, idx_v16, v15_at P (ix1 u) h]

/-- The right start index as a column. -/
theorem v27_at (h : (i1w (P (ix1 u))).toNat < 65536) :
    Read.val_main_v27 (F := Ideal) P (ix2 u (0 : Fin 1)) = i1w (P (ix1 u)) := by
  rw [Read.val_main_v27_apply, idx_v27, v26_at P (ix1 u) h]

/-- The left texel's row, channel c. -/
theorem v17_at (h : (i0w (P (ix1 u))).toNat < 65536) :
    Read.val_main_v17 (F := Ideal) X P (ix2 u c) = X (ix2 (rowOf (i0w (P (ix1 u)))) c) := by
  unfold Read.val_main_v17
  exact gather_row_of_lt X (Read.val_main_v16 (F := Ideal) P) u c (i0w (P (ix1 u))) (v16_at P u h) h

/-- The right texel's row, channel c. -/
theorem v28_at (h : (i1w (P (ix1 u))).toNat < 65536) :
    Read.val_main_v28 (F := Ideal) X P (ix2 u c) = X (ix2 (rowOf (i1w (P (ix1 u)))) c) := by
  unfold Read.val_main_v28
  exact gather_row_of_lt X (Read.val_main_v27 (F := Ideal) P) u c (i1w (P (ix1 u))) (v27_at P u h) h

/-- One minus the weight, spread over the channels. -/
theorem v20_at : Read.val_main_v20 (F := Ideal) P (ix2 u c) = 1 - wgt (P (ix1 u)) := by
  rw [Read.val_main_v20_apply, idx_v20, Read.val_main_v19_apply, Read.val_main_v18_apply, Read.val_main_cst_6_apply,
    v10_at]
  show Ideal.ofBits .f32 0x3F800000#32 - wgt (P (ix1 u)) = _
  rw [ofBits_one]

/-- The weight, spread over the channels. -/
theorem v29_at : Read.val_main_v29 (F := Ideal) P (ix2 u c) = wgt (P (ix1 u)) := by
  rw [Read.val_main_v29_apply, idx_v29, v10_at]

/-- The fetch at (u, c), its index's coordinates read off. -/
theorem G_apply : G X P (ix2 u c)
    = X (ix2 (rowOf (i0w (P (ix1 u)))) c) * (1 - wgt (P (ix1 u))) + X (ix2 (rowOf (i1w (P (ix1 u)))) c) * wgt (P (ix1 u)) :=
  rfl

end Entry

/-! ## The reference is the fetch -/

/-- At finite coordinates the reference's result is the fetch, index by index. -/
theorem ref_eq (X : FVec Ideal S65536x16 .f32) (P : FVec Ideal S4194304 .f32)
    (hP : ∀ i, ∃ r : ℝ, P i = (r : EReal)) :
    Read.val_main_v31 (F := Ideal) X P = G X P := by
  funext j
  obtain ⟨u, c, rfl⟩ : ∃ (u : Fin 4194304) (c : Fin 16), j = ix2 u c := ⟨j 0, j 1, eq_ix2 j⟩
  obtain ⟨r, hr⟩ := hP (ix1 u)
  have h0 : (i0w (P (ix1 u))).toNat < 65536 := by rw [hr]; exact i0w_lt r
  have h1 : (i1w (P (ix1 u))).toNat < 65536 := by rw [hr]; exact i1w_lt r
  rw [Read.val_main_v31_apply, Read.val_main_v21_apply, Read.val_main_v30_apply, v17_at X P u c h0, v28_at X P u c h1,
    v20_at, v29_at, G_apply]
  rfl

end Cert.Sampler.Ref

end
-- ==== Proof.KLemmas.lean ====
/-
  Small reads at an index used by the sampler's kernel: a vector recast as a column, an equality mask as the number
  0 or 1, the offset words of a chunk, and the sum that a one-hot row picks out of a chunk of rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Sampler.K

open Idealize.ShloMosaic Idealize.ShloMosaic.ValueIdx

variable {α : Type}

/-- An `[a]` vector recast as an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The indicator of equality of two words, as an extended real. -/
def ind (a b : BitVec 32) : EReal := if a = b then 1 else 0

/-- An equality test widened to a word and converted to a float is that indicator. -/
theorem sitofp_cmpi_eq (a b : BitVec 32) :
    FloatOps.sitofp (F := Ideal) .f32 ((IntOp.cmpi .eq a b).setWidth 32) = ind a b := by
  unfold ind IntOp.cmpi
  by_cases h : a = b
  · subst h
    rw [if_pos rfl]
    show (((((BitVec.ofBool (a == a)).setWidth 32).toInt : ℤ) : ℝ) : EReal) = 1
    rw [beq_self_eq_true]
    have : ((BitVec.ofBool true).setWidth 32).toInt = 1 := by decide
    rw [this]; simp
  · rw [if_neg h]
    show (((((BitVec.ofBool (a == b)).setWidth 32).toInt : ℤ) : ℝ) : EReal) = 0
    have hb : (a == b) = false := by simpa using h
    rw [hb]
    have : ((BitVec.ofBool false).setWidth 32).toInt = 0 := by decide
    rw [this]; simp

/-- The sum a one-hot row picks out of a chunk of 512 rows: row `ρ` of the table if the chunk `[512k, 512k + 512)` holds
    it, else nothing. -/
theorem sum_onehot_chunk (ρ k : ℕ) (f : Fin 512 → EReal) (g : ℕ → EReal) (hf : ∀ q : Fin 512, f q = g (512 * k + q.val)) :
    (∑ q : Fin 512, (if ρ = 512 * k + q.val then (1 : EReal) else 0) * f q)
      = if 512 * k ≤ ρ ∧ ρ < 512 * k + 512 then g ρ else 0 := by
  by_cases h : 512 * k ≤ ρ ∧ ρ < 512 * k + 512
  · rw [if_pos h]
    have hq : ρ - 512 * k < 512 := by omega
    rw [Finset.sum_eq_single (⟨ρ - 512 * k, hq⟩ : Fin 512)]
    · have e : ρ = 512 * k + (ρ - 512 * k) := by omega
      rw [if_pos e, one_mul, hf]
      exact congrArg g e.symm
    · intro q _ hne
      have : ¬ ρ = 512 * k + q.val := fun e => hne (Fin.ext (by show q.val = ρ - 512 * k; omega))
      rw [if_neg this, zero_mul]
    · intro hn; exact absurd (Finset.mem_univ _) hn
  · rw [if_neg h]
    refine Finset.sum_eq_zero fun q _ => ?_
    have hq := q.isLt
    have : ¬ ρ = 512 * k + q.val := fun e => h ⟨by omega, by omega⟩
    rw [if_neg this, zero_mul]

/-- The accumulator's step: what the chunks before `k` gave plus what chunk `k` gives is what the chunks before
    `k + 1` give. -/
theorem acc_step (ρ k : ℕ) (v : EReal) :
    (if ρ < 512 * k then v else 0) + (if 512 * k ≤ ρ ∧ ρ < 512 * k + 512 then v else 0)
      = if ρ < 512 * (k + 1) then v else 0 := by
  by_cases h1 : ρ < 512 * k
  · rw [if_pos h1, if_neg (by omega), if_pos (by omega), add_zero]
  · rw [if_neg h1, zero_add]
    by_cases h2 : ρ < 512 * k + 512
    · rw [if_pos ⟨by omega, h2⟩, if_pos (by omega)]
    · rw [if_neg (fun h => h2 h.2), if_neg (by omega)]

end Cert.Sampler.K

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KAcc.lean ====
/-
  The kernel's accumulator over its eight chunks of 512 packed rows.  Each trip adds, to every row `p` of the
  accumulator, the product of a one-hot row (the indicator of "the packed-row word of sample `p` is row `512k + q` of the
  table") with chunk `k` of the table: that product is row `ρ` of the table if the chunk holds `ρ`, and zero otherwise.
  After the eight trips the accumulator holds row `ρ` of the table for every sample whose word `ρ` is below 4096.
-/
import proofs.«109323_j37383395344605_2_alg».proof.Proof.Gen.KernelIdeal.Value
import proofs.«109323_j37383395344605_2_alg».proof.Proof.KLemmas
import proofs.«109323_j37383395344605_2_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Sampler.K

open Cert.KernelIdeal Cert.KernelIdeal.Gen Idealize.ShloMosaic Idealize.ShloMosaic.ValueIdx Idealize.ShloMosaic.TcCoe Idealize.SL.Sem

/-- The contraction of the kernel's matrix products: `[1024, 512] · [512, 256]`. -/
local notation "DD" => dot_S1024x512_S512x256_S1024x256_1_0_0_1_n_n

/-! ## Which operand entries a product term reads -/

theorem lhs_0 (i : S1024x256.Idx) (q : DotDims.contr DD |>.Idx) : (DotDims.lhsIdx DD i q 0).val = (i 0).val := by
  unfold DotDims.lhsIdx
  rw [dif_neg (show ¬(0 : Fin S1024x512.rank) ∈ DotDims.lhsBatch DD by decide),
    dif_pos (show (0 : Fin S1024x512.rank) ∈ DotDims.lhsNonContracting DD by decide)]
  rfl

theorem lhs_1 (i : S1024x256.Idx) (q : DotDims.contr DD |>.Idx) : (DotDims.lhsIdx DD i q 1).val = (q ⟨0, by decide⟩).val :=
  DotDims.lhsIdx_val_of_single DD rfl i q

theorem rhs_0 (i : S1024x256.Idx) (q : DotDims.contr DD |>.Idx) : (DotDims.rhsIdx DD i q 0).val = (q ⟨0, by decide⟩).val :=
  DotDims.rhsIdx_val_of_single DD rfl i q

theorem rhs_1 (i : S1024x256.Idx) (q : DotDims.contr DD |>.Idx) : (DotDims.rhsIdx DD i q 1).val = (i 1).val := by
  unfold DotDims.rhsIdx
  rw [dif_neg (show ¬(1 : Fin S512x256.rank) ∈ DotDims.rhsBatch DD by decide),
    dif_pos (show (1 : Fin S512x256.rank) ∈ DotDims.rhsNonContracting DD by decide)]
  rfl

/-- A product into a zero accumulator, entry `(p, l)`: the sum over the 512 contracted positions. -/
theorem matmul_zero_apply (lhs : FVec Ideal S1024x512 .bf16) (rhs : FVec Ideal S512x256 .bf16) (p : Fin 1024) (l : Fin 256) :
    FloatOps.matmul DD none lhs rhs (constant S1024x256 .f32 0x00000000#32) (ix2 p l)
      = ∑ q : Fin 512, lhs (ix2 p q) * rhs (ix2 q l) := by
  rw [Ideal.matmul_constant_zero_apply, ← Equiv.sum_comp (contrEquiv1 DD 512 rfl rfl).symm]
  refine Finset.sum_congr rfl fun q _ => ?_
  have hk := contrEquiv1_symm_val DD 512 rfl rfl q
  have el : DotDims.lhsIdx DD (ix2 p l) ((contrEquiv1 DD 512 rfl rfl).symm q) = ix2 p q := funext fun a => Fin.ext (by
    match a with
    | ⟨0, _⟩ => exact lhs_0 _ _
    | ⟨1, _⟩ => exact (lhs_1 _ _).trans hk)
  have er : DotDims.rhsIdx DD (ix2 p l) ((contrEquiv1 DD 512 rfl rfl).symm q) = ix2 q l := funext fun a => Fin.ext (by
    match a with
    | ⟨0, _⟩ => exact (rhs_0 _ _).trans hk
    | ⟨1, _⟩ => exact rhs_1 _ _)
  rw [el, er]

/-! ## The one-hot rows and a trip's products -/

/-- The row numbers of chunk `k`: position `q` of the chunk is row `512 k + q` of the table. -/
theorem chunk_rows_apply (k : Fin k0_t1_loop.trips) (u : Fin 1) (q : Fin 512) :
    k0_pay7 k (ix2 u q) = BitVec.ofNat 32 (512 * k.val + q.val) := by
  show (0#32 + BitVec.ofNat 32 k.val * 1#32) * 512#32 + BitVec.ofNat 32 (0 * 512 + q.val) = _
  rw [BitVec.zero_add, BitVec.mul_one, Nat.zero_mul, Nat.zero_add, BitVec.ofNat_add, BitVec.ofNat_mul, BitVec.mul_comm]

/-- A one-hot matrix entry: the indicator that sample `p`'s row word is the row number at position `q`. -/
theorem onehot_apply (rw : IVec S1024x1 32) (cw : IVec S1x512 32) (p : Fin 1024) (q : Fin 512) :
    (truncf .bf16 (sitofp .f32 (extui 32 (cmpi .eq (broadcastTo S1024x512 rw broadcasts_S1024x1_S1024x512)
        (broadcastTo S1024x512 cw broadcasts_S1x512_S1024x512)) natLt_1_32)) bitsLt_bf16_f32 : FVec Ideal S1024x512 .bf16) (ix2 p q)
      = ind (rw (ix2 p (0 : Fin 1))) (cw (ix2 (0 : Fin 1) q)) := by
  show FloatOps.sitofp (F := Ideal) .f32 ((IntOp.cmpi .eq (broadcastTo S1024x512 rw broadcasts_S1024x1_S1024x512 (ix2 p q))
      (broadcastTo S1024x512 cw broadcasts_S1x512_S1024x512 (ix2 p q))).setWidth 32) = _
  rw [Cert.LibLayout.broadcastTo_a1_ab_apply rw broadcasts_S1024x1_S1024x512 p q,
    broadcastTo_1b_ab_apply cw broadcasts_S1x512_S1024x512 p q]
  exact sitofp_cmpi_eq _ _

/-- One trip's contribution to an accumulator driven by the index words `iw`: entry `(p, l)` gains the sum over the chunk's
    512 rows of the indicator "`iw p` shifted right by four is row `512 k + q`" times the chunk's entry `(q, l)`. -/
theorem trip_apply (iw : IVec S1024 32) (k : Fin k0_t1_loop.trips) (acc : FVec Ideal S1024x256 .f32) (v308 : Vec Ideal S512x256 .bf16)
    (p : Fin 1024) (l : Fin 256) :
    (addf acc (matmul DD none
        (truncf .bf16 (sitofp .f32 (extui 32 (cmpi .eq
          (broadcastTo S1024x512 (shapeCast S1024x1 (shrsi iw (broadcast S1024 4#32)) shapeCasts_S1024_S1024x1) broadcasts_S1024x1_S1024x512)
          (broadcastTo S1024x512 (k0_pay7 k) broadcasts_S1x512_S1024x512)) natLt_1_32)) bitsLt_bf16_f32)
        (k0_pay8 v308) (constant S1024x256 .f32 0x00000000#32)) : FVec Ideal S1024x256 .f32) (ix2 p l)
      = acc (ix2 p l) + ∑ q : Fin 512, ind (IntOp.shrsi .vector (iw (ix1 p)) 4#32) (BitVec.ofNat 32 (512 * k.val + q.val)) * v308 (ix2 q l) := by
  refine (addf_apply _ _ _).trans (congrArg (acc (ix2 p l) + ·) ?_)
  refine (matmul_zero_apply _ _ p l).trans (Finset.sum_congr rfl fun q _ => ?_)
  rw [onehot_apply, chunk_rows_apply, shapeCast_a_a1_apply]
  unfold k0_pay8
  rw [shapeCast_self]
  rfl

theorem pay9_apply (v0 : Vec Ideal S1024 .f32) (k : Fin k0_t1_loop.trips) (acc : FVec Ideal S1024x256 .f32) (v308 : Vec Ideal S512x256 .bf16)
    (p : Fin 1024) (l : Fin 256) :
    k0_pay9 (F := Ideal) v0 k acc v308 (ix2 p l)
      = acc (ix2 p l) + ∑ q : Fin 512, ind (IntOp.shrsi .vector (k0_pay2 v0 (ix1 p)) 4#32) (BitVec.ofNat 32 (512 * k.val + q.val)) * v308 (ix2 q l) :=
  trip_apply (k0_pay2 v0) k acc v308 p l

theorem pay10_apply (v0 : Vec Ideal S1024 .f32) (k : Fin k0_t1_loop.trips) (acc : FVec Ideal S1024x256 .f32) (v308 : Vec Ideal S512x256 .bf16)
    (p : Fin 1024) (l : Fin 256) :
    k0_pay10 (F := Ideal) v0 k acc v308 (ix2 p l)
      = acc (ix2 p l) + ∑ q : Fin 512, ind (IntOp.shrsi .vector (k0_pay3 v0 (ix1 p)) 4#32) (BitVec.ofNat 32 (512 * k.val + q.val)) * v308 (ix2 q l) :=
  trip_apply (k0_pay3 v0) k acc v308 p l

end Cert.Sampler.K

end
-- ==== Proof.KLoop.lean ====
/-
  The eight trips together.  A trip's chunk is rows `512 k … 512 k + 511` of the packed table, so by induction on the
  number of trips done the accumulator of sample `p` holds row `ρ` of the table once the chunks done reach past `ρ`, and
  zero before; after the eight trips it is row `ρ` for every `ρ < 4096`.
-/
import proofs.«109323_j37383395344605_2_alg».proof.Proof.KAcc

set_option maxRecDepth 16384

noncomputable section

namespace Cert.Sampler.K

open Cert.KernelIdeal Cert.KernelIdeal.Gen Idealize.ShloMosaic Idealize.ShloMosaic.ValueIdx Idealize.ShloMosaic.TcCoe Idealize.SL.Sem

theorem trips_eq : k0_t1_loop.trips = 8 := by decide

/-- A row number of the packed table, from any natural number. -/
def row4096 (n : ℕ) : Fin 4096 := ⟨n % 4096, Nat.mod_lt _ (by decide)⟩

/-- The indicator against a small literal row number compares the word's value. -/
theorem ind_ofNat (a : BitVec 32) (m : ℕ) (hm : m < 2 ^ 32) : ind a (BitVec.ofNat 32 m) = if a.toNat = m then 1 else 0 := by
  unfold ind
  have : (a = BitVec.ofNat 32 m) ↔ a.toNat = m := by
    constructor
    · intro h; rw [h, BitVec.toNat_ofNat, Nat.mod_eq_of_lt hm]
    · intro h; apply BitVec.eq_of_toNat_eq; rw [BitVec.toNat_ofNat, Nat.mod_eq_of_lt hm, h]
  by_cases h : a.toNat = m
  · rw [if_pos (this.mpr h), if_pos h]
  · rw [if_neg (fun e => h (this.mp e)), if_neg h]

section Trip
variable (𝒱 : Variants) (c : Dev nD) (bd : Option 𝒱.V) (i : grid0.Coords) (arg1 : Memref sig .tc .vmem S1024 .f32) (harg1 : arg1.IsWhole)
  (arg2 : Memref sig .tc .vmem S4096x256 .bf16) (harg2 : arg2.IsWhole) (arg3 : Memref sig .tc .vmem S1024x16 .f32) (harg3 : arg3.IsWhole)
  (v0 : Vec Ideal S1024 .f32) (x1 : Vec Ideal S4096x256 .bf16)

/-- Chunk `k` of the table, as the trip loads it. -/
abbrev chunk (k : Fin k0_t1_loop.trips) : Vec Ideal S512x256 .bf16 :=
  View.readAt (Elt Ideal) arg2.view (Rect.unit (s := S4096x256) (k0_off1 k) S512x256.size (k0_off1_inb k)).toLoadRect (harg2.unread x1)

/-- Its entry `(q, l)` is the table's entry `(512 k + q, l)`. -/
theorem chunk_apply (k : Fin k0_t1_loop.trips) (q : Fin 512) (l : Fin 256) :
    chunk arg2 harg2 x1 k (ix2 q l) = x1 (ix2 (row4096 (512 * k.val + q.val)) l) := by
  have hk : k.val < 8 := Nat.lt_of_lt_of_le k.isLt (le_of_eq trips_eq)
  have h1 : chunk arg2 harg2 x1 k = View.ld (arg2.view.read (Elt Ideal) (harg2.unread x1))
      (Rect.unit (s := S4096x256) (k0_off1 k) S512x256.size (k0_off1_inb k)) := rfl
  rw [h1, harg2.read_unread]
  show x1 _ = x1 _
  refine congrArg x1 (funext fun a => Fin.ext ?_)
  match a with
  | ⟨0, _⟩ =>
    rw [LoadRect.idx_apply]
    simp [Rect.unit, k0_off1_eq k, row4096]
    have e0 : ((ix2 q l : S512x256.Idx) 0).val = q.val := rfl
    have hq := q.isLt
    omega
  | ⟨1, _⟩ =>
    rw [LoadRect.idx_apply]
    simp [Rect.unit, k0_off1_eq k]

/-- What one trip yields, spelt out: both accumulators gain their products with the chunk. -/
theorem tripR_eq (k : Fin k0_t1_loop.trips) (acc : FVec Ideal S1024x256 .f32 × FVec Ideal S1024x256 .f32) :
    tripR_k0_t1 (F := Ideal) 𝒱 c bd i arg1 harg1 arg2 harg2 arg3 harg3 v0 (harg2.unread x1) k acc
      = (k0_pay9 v0 k acc.1 (chunk arg2 harg2 x1 k), k0_pay10 v0 k acc.2 (chunk arg2 harg2 x1 k)) := by
  unfold tripR_k0_t1 trip_k0_t1
  rfl

end Trip

section Loop
variable (𝒱 : Variants) (c : Dev nD) (bd : Option 𝒱.V) (i : grid0.Coords) (arg1 : Memref sig .tc .vmem S1024 .f32) (harg1 : arg1.IsWhole)
  (arg2 : Memref sig .tc .vmem S4096x256 .bf16) (harg2 : arg2.IsWhole) (arg3 : Memref sig .tc .vmem S1024x16 .f32) (harg3 : arg3.IsWhole)
  (v0 : Vec Ideal S1024 .f32) (x1 : Vec Ideal S4096x256 .bf16)

/-- What chunk `n` adds to the accumulator driven by the word `a`: row `a` of the table if the chunk holds it. -/
theorem chunk_sum (a : BitVec 32) (n : ℕ) (hn : n < k0_t1_loop.trips) (l : Fin 256) :
    (∑ q : Fin 512, ind a (BitVec.ofNat 32 (512 * n + q.val)) * chunk arg2 harg2 x1 ⟨n, hn⟩ (ix2 q l))
      = if 512 * n ≤ a.toNat ∧ a.toNat < 512 * n + 512 then x1 (ix2 (row4096 a.toNat) l) else 0 := by
  have hn8 : n < 8 := Nat.lt_of_lt_of_le hn (le_of_eq trips_eq)
  rw [← sum_onehot_chunk a.toNat n (fun q => chunk arg2 harg2 x1 ⟨n, hn⟩ (ix2 q l)) (fun m => x1 (ix2 (row4096 m) l))
    (fun q => chunk_apply arg2 harg2 x1 ⟨n, hn⟩ q l)]
  refine Finset.sum_congr rfl fun q _ => ?_
  have hq := q.isLt
  rw [ind_ofNat _ _ (by omega)]

/-- After `n` trips each accumulator holds its sample's table row once the chunks done reach past it, zero before. -/
theorem st_apply (n : ℕ) (hn : n ≤ 8) (p : Fin 1024) (l : Fin 256) :
    (st_k0_t1 (F := Ideal) 𝒱 c bd i arg1 harg1 arg2 harg2 arg3 harg3 v0 (harg2.unread x1) (k0_pay5, k0_pay6) n).1 (ix2 p l) = (if (IntOp.shrsi .vector (k0_pay2 v0 (ix1 p)) 4#32).toNat < 512 * n then x1 (ix2 (row4096 (IntOp.shrsi .vector (k0_pay2 v0 (ix1 p)) 4#32).toNat) l) else 0)
    ∧ (st_k0_t1 (F := Ideal) 𝒱 c bd i arg1 harg1 arg2 harg2 arg3 harg3 v0 (harg2.unread x1) (k0_pay5, k0_pay6) n).2 (ix2 p l) = (if (IntOp.shrsi .vector (k0_pay3 v0 (ix1 p)) 4#32).toNat < 512 * n then x1 (ix2 (row4096 (IntOp.shrsi .vector (k0_pay3 v0 (ix1 p)) 4#32).toNat) l) else 0) := by
  induction n with
  | zero =>
    refine ⟨?_, ?_⟩
    · show Ideal.ofBits .f32 0x00000000#32 = _
      rw [Ideal.ofBits_zero_f32, if_neg (by omega)]
    · show Ideal.ofBits .f32 0x00000000#32 = _
      rw [Ideal.ofBits_zero_f32, if_neg (by omega)]
  | succ n ih =>
    have hn' : n < k0_t1_loop.trips := by rw [trips_eq]; omega
    obtain ⟨ih1, ih2⟩ := ih (by omega)
    have hs := st_k0_t1_succ (F := Ideal) 𝒱 c bd i arg1 harg1 arg2 harg2 arg3 harg3 v0 (harg2.unread x1) (k0_pay5, k0_pay6) ⟨n, hn'⟩
    have hs' : (st_k0_t1 (F := Ideal) 𝒱 c bd i arg1 harg1 arg2 harg2 arg3 harg3 v0 (harg2.unread x1) (k0_pay5, k0_pay6) (n + 1)) = (k0_pay9 v0 ⟨n, hn'⟩ (st_k0_t1 (F := Ideal) 𝒱 c bd i arg1 harg1 arg2 harg2 arg3 harg3 v0 (harg2.unread x1) (k0_pay5, k0_pay6) n).1 (chunk arg2 harg2 x1 ⟨n, hn'⟩),
        k0_pay10 v0 ⟨n, hn'⟩ (st_k0_t1 (F := Ideal) 𝒱 c bd i arg1 harg1 arg2 harg2 arg3 harg3 v0 (harg2.unread x1) (k0_pay5, k0_pay6) n).2 (chunk arg2 harg2 x1 ⟨n, hn'⟩)) := hs.trans (tripR_eq 𝒱 c bd i arg1 harg1 arg2 harg2 arg3 harg3 v0 x1 ⟨n, hn'⟩ _)
    rw [hs']
    refine ⟨?_, ?_⟩
    · show k0_pay9 v0 ⟨n, hn'⟩ (st_k0_t1 (F := Ideal) 𝒱 c bd i arg1 harg1 arg2 harg2 arg3 harg3 v0 (harg2.unread x1) (k0_pay5, k0_pay6) n).1 (chunk arg2 harg2 x1 ⟨n, hn'⟩) (ix2 p l) = _
      rw [pay9_apply, ih1, chunk_sum arg2 harg2 x1 _ n hn' l, acc_step]
    · show k0_pay10 v0 ⟨n, hn'⟩ (st_k0_t1 (F := Ideal) 𝒱 c bd i arg1 harg1 arg2 harg2 arg3 harg3 v0 (harg2.unread x1) (k0_pay5, k0_pay6) n).2 (chunk arg2 harg2 x1 ⟨n, hn'⟩) (ix2 p l) = _
      rw [pay10_apply, ih2, chunk_sum arg2 harg2 x1 _ n hn' l, acc_step]

/-- After the eight trips: the table's row, for a word below 4096. -/
theorem loop_fst (p : Fin 1024) (l : Fin 256) (h : (IntOp.shrsi .vector (k0_pay2 v0 (ix1 p)) 4#32).toNat < 4096) :
    (st_k0_t1 (F := Ideal) 𝒱 c bd i arg1 harg1 arg2 harg2 arg3 harg3 v0 (harg2.unread x1) (k0_pay5, k0_pay6) 8).1 (ix2 p l) = x1 (ix2 (row4096 (IntOp.shrsi .vector (k0_pay2 v0 (ix1 p)) 4#32).toNat) l) := by
  rw [(st_apply 𝒱 c bd i arg1 harg1 arg2 harg2 arg3 harg3 v0 x1 8 le_rfl p l).1, if_pos (by omega)]

theorem loop_snd (p : Fin 1024) (l : Fin 256) (h : (IntOp.shrsi .vector (k0_pay3 v0 (ix1 p)) 4#32).toNat < 4096) :
    (st_k0_t1 (F := Ideal) 𝒱 c bd i arg1 harg1 arg2 harg2 arg3 harg3 v0 (harg2.unread x1) (k0_pay5, k0_pay6) 8).2 (ix2 p l) = x1 (ix2 (row4096 (IntOp.shrsi .vector (k0_pay3 v0 (ix1 p)) 4#32).toNat) l) := by
  rw [(st_apply 𝒱 c bd i arg1 harg1 arg2 harg2 arg3 harg3 v0 x1 8 le_rfl p l).2, if_pos (by omega)]

end Loop

end Cert.Sampler.K

end
-- ==== Proof.KSelect.lean ====
/-
  The sixteen-way choice of a channel group and the blend.  A packed row holds sixteen texture rows side by side, sixteen
  lanes each; the kernel adds, over the sixteen groups `g`, the indicator "the sample's group word is `g`" times lanes
  `16 g … 16 g + 15` of the accumulator.  Exactly one indicator is 1, so the sum is the accumulator's lanes of the
  sample's own group.  The two sums (left and right texel) are then blended with the weights `1 − w` and `w`.
-/
import proofs.«109323_j37383395344605_2_alg».proof.Proof.Gen.KernelIdeal.Value
import proofs.«109323_j37383395344605_2_alg».proof.Proof.KLemmas
import proofs.«109323_j37383395344605_2_alg».proof.Proof.LibLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Sampler.K

open Cert.KernelIdeal Cert.KernelIdeal.Gen Idealize.ShloMosaic Idealize.ShloMosaic.ValueIdx Idealize.ShloMosaic.TcCoe Idealize.SL.Sem

/-- Lane `o + c` of a packed row. -/
def lane (o : ℕ) (c : Fin 16) : Fin 256 := ⟨(o + c.val) % 256, Nat.mod_lt _ (by decide)⟩

/-- A group mask spread over the sixteen channels: the indicator of the sample's group word against the tested one. -/
theorem mask_apply (gi gc : IVec S1024x1 32) (p : Fin 1024) (c : Fin 16) :
    (broadcastTo S1024x16 (sitofp .f32 (extui 32 (cmpi .eq gi gc) natLt_1_32) : FVec Ideal S1024x1 .f32) broadcasts_S1024x1_S1024x16) (ix2 p c)
      = ind (gi (ix2 p (0 : Fin 1))) (gc (ix2 p (0 : Fin 1))) := by
  rw [Cert.LibLayout.broadcastTo_a1_ab_apply]
  exact sitofp_cmpi_eq _ _

/-- The same mask before it is spread: one entry of the column. -/
theorem maskcol_apply (gi gc : IVec S1024x1 32) (p : Fin 1024) :
    (sitofp .f32 (extui 32 (cmpi .eq gi gc) natLt_1_32) : FVec Ideal S1024x1 .f32) (ix2 p (0 : Fin 1))
      = ind (gi (ix2 p (0 : Fin 1))) (gc (ix2 p (0 : Fin 1))) :=
  sitofp_cmpi_eq _ _

/-- Sixteen lanes of the accumulator from lane `o`. -/
theorem slice_apply (o : ℕ) (A : FVec Ideal S1024x256 .f32) (h : S1024x256.Slices ![0, o] S1024x16) (p : Fin 1024) (c : Fin 16) :
    extractStridedSlice S1024x16 ![0, o] A h (ix2 p c) = A (ix2 p (lane o c)) := by
  have hb : o + 16 ≤ 256 := h.2 1
  refine slice2_axis1_apply o A h p c (lane o c) ?_
  show (o + c.val) % 256 = o + c.val
  have := c.isLt
  omega

/-- A column of weights spread over the sixteen channels. -/
theorem col_apply (v : FVec Ideal S1024x1 .f32) (p : Fin 1024) (c : Fin 16) :
    broadcastTo S1024x16 v broadcasts_S1024x1_S1024x16 (ix2 p c) = v (ix2 p (0 : Fin 1)) :=
  Cert.LibLayout.broadcastTo_a1_ab_apply v broadcasts_S1024x1_S1024x16 p c

/-- The sum over the sixteen groups, in the kernel's order. -/
def pick (A : FVec Ideal S1024x256 .f32) (g : BitVec 32) (p : Fin 1024) (c : Fin 16) : EReal :=
  ((((((((((((((((0 + ind g 0#32 * A (ix2 p (lane 0 c))) + ind g 1#32 * A (ix2 p (lane 16 c))) + ind g 2#32 * A (ix2 p (lane 32 c))) + ind g 3#32 * A (ix2 p (lane 48 c))) + ind g 4#32 * A (ix2 p (lane 64 c))) + ind g 5#32 * A (ix2 p (lane 80 c))) + ind g 6#32 * A (ix2 p (lane 96 c))) + ind g 7#32 * A (ix2 p (lane 112 c))) + ind g 8#32 * A (ix2 p (lane 128 c))) + ind g 9#32 * A (ix2 p (lane 144 c))) + ind g 10#32 * A (ix2 p (lane 160 c))) + ind g 11#32 * A (ix2 p (lane 176 c))) + ind g 12#32 * A (ix2 p (lane 192 c))) + ind g 13#32 * A (ix2 p (lane 208 c))) + ind g 14#32 * A (ix2 p (lane 224 c))) + ind g 15#32 * A (ix2 p (lane 240 c)))

/-- Exactly one group matches: the sum is the accumulator's lanes of that group. -/
theorem pick_eq (A : FVec Ideal S1024x256 .f32) (γ : ℕ) (hγ : γ < 16) (p : Fin 1024) (c : Fin 16) :
    pick A (BitVec.ofNat 32 γ) p c = A (ix2 p (lane (16 * γ) c)) := by
  unfold pick ind
  interval_cases γ <;> simp

/-- What the kernel stores, as a term of the weights `w`, the two accumulators and the two group-word columns. -/
def stored (w : FVec Ideal S1024 .f32) (A0 A1 : FVec Ideal S1024x256 .f32) (g0 g1 : IVec S1024x1 32) : FVec Ideal S1024x16 .f32 :=
  k0_pay28 w A0 A1 g0 g1
    (k0_pay25 A0 g0 (k0_pay22 A0 g0 (k0_pay20 A0 g0 (k0_pay16 A0 g0 k0_pay13 k0_pay15) (k0_pay18 A0 g0))) k0_pay24)
    (k0_pay26 A1 g1 (k0_pay23 A1 g1 (k0_pay19 A1 g1 (k0_pay17 A1 g1 k0_pay14)) (k0_pay21 g1)))
    (k0_pay27 A0 g0)

/-- Its entry `(p, c)`: the two group sums blended. -/
theorem stored_apply (w : FVec Ideal S1024 .f32) (A0 A1 : FVec Ideal S1024x256 .f32) (g0 g1 : IVec S1024x1 32) (p : Fin 1024) (c : Fin 16) :
    stored w A0 A1 g0 g1 (ix2 p c)
      = pick A0 (g0 (ix2 p (0 : Fin 1))) p c * (Ideal.ofBits .f32 0x3F800000#32 - w (ix1 p))
        + pick A1 (g1 (ix2 p (0 : Fin 1))) p c * w (ix1 p) := by
  unfold stored k0_pay28 k0_pay27 k0_pay26 k0_pay25 k0_pay24 k0_pay23 k0_pay22 k0_pay21 k0_pay20 k0_pay19 k0_pay18 k0_pay17 k0_pay16
    k0_pay15 k0_pay14 k0_pay13 pick
  simp only [addf_apply, mulf_apply, subf_apply, mask_apply, slice_apply, col_apply, maskcol_apply, broadcast_apply,
    shapeCast_a_a1_apply, Ideal.ofBits_def, Ideal.ofBits_zero_f32]

end Cert.Sampler.K

end
-- ==== Proof.KBody.lean ====
/-
  One grid point of the kernel, entry by entry.  For a finite coordinate `x` of sample `p` the body computes the clamped
  scaled coordinate, the two texel words `i₀`, `i₁` (both below 65536), their packed rows `i / 16` and lane groups
  `i mod 16`; the eight trips leave each accumulator at its packed row of the table; the sixteen-way choice keeps the
  lanes of its group; so the stored entry `(p, c)` is
  `T[i₀ / 16, 16 (i₀ mod 16) + c] · (1 − w) + T[i₁ / 16, 16 (i₁ mod 16) + c] · w` with `w` the clamped weight.
-/
import proofs.«109323_j37383395344605_2_alg».proof.Proof.Spec
import proofs.«109323_j37383395344605_2_alg».proof.Proof.KLoop
import proofs.«109323_j37383395344605_2_alg».proof.Proof.KSelect

set_option maxRecDepth 16384

noncomputable section

namespace Cert.Sampler.K

open Cert.KernelIdeal Cert.KernelIdeal.Gen Idealize.ShloMosaic Idealize.ShloMosaic.ValueIdx Idealize.ShloMosaic.TcCoe Idealize.SL.Sem
open Idealize.ShloMosaic.Tactic

/-! ## Words below 65536: their packed row and lane group -/

theorem shr4_toNat (b : BitVec 32) (h : b.toNat < 65536) : (IntOp.shrsi .vector b 4#32).toNat = b.toNat / 16 := by
  unfold IntOp.shrsi
  rw [if_pos (by decide)]
  have hm : b.msb = false := by rw [BitVec.msb_eq_false_iff_two_mul_lt]; omega
  show (b.sshiftRight (4#32).toNat).toNat = _
  rw [BitVec.sshiftRight_eq_of_msb_false hm, BitVec.toNat_ushiftRight, Nat.shiftRight_eq_div_pow]
  rfl

theorem and15 (b : BitVec 32) : IntOp.andi b 15#32 = BitVec.ofNat 32 (b.toNat % 16) := by
  unfold IntOp.andi
  apply BitVec.eq_of_toNat_eq
  rw [BitVec.toNat_and]
  have h15 : (15#32 : BitVec 32).toNat = 2 ^ 4 - 1 := rfl
  rw [h15, Nat.and_two_pow_sub_one_eq_mod, BitVec.toNat_ofNat]
  have : b.toNat % 2 ^ 4 < 16 := Nat.mod_lt _ (by decide)
  omega

/-! ## The body's scalars at a sample -/

section Scalars
variable (x0 : Vec Ideal S1024 .f32) (p : Fin 1024)

theorem pay1_apply : k0_pay1 x0 (ix1 p) = tcoK (x0 (ix1 p)) := by
  show min (x0 (ix1 p) * Ideal.ofBits .f32 0x477FFF00#32) (Ideal.ofBits .f32 0x477FFF00#32) = _
  rw [ofBits_65535]; rfl

theorem pay2_apply' : k0_pay2 x0 (ix1 p) = Ideal.fptosi 32 (cflK (x0 (ix1 p))) := by
  show Ideal.fptosi 32 (min (Ideal.ofBits .f32 0x477FFF00#32) (max (Ideal.ofBits .f32 0x00000000#32)
    (Ideal.liftRound Int.floor (k0_pay1 x0 (ix1 p))))) = _
  rw [pay1_apply, ofBits_65535, Ideal.ofBits_zero_f32]; rfl

variable (r : ℝ) (hr : x0 (ix1 p) = (r : EReal))
include hr

theorem pay2_apply : k0_pay2 x0 (ix1 p) = i0w (r : EReal) := by
  rw [pay2_apply', hr, cflK_eq]; rfl

theorem pay3_apply : k0_pay3 x0 (ix1 p) = i1w (r : EReal) := by
  show IntOp.minsi 65535#32 (IntOp.maxsi 0#32 (IntOp.addi (k0_pay2 x0 (ix1 p)) 1#32)) = _
  rw [pay2_apply x0 p r hr]; rfl

theorem pay4_apply : k0_pay4 x0 (ix1 p) = wgtK (r : EReal) := by
  show k0_pay1 x0 (ix1 p) - (((k0_pay2 x0 (ix1 p)).toInt : ℝ) : EReal) = _
  rw [pay1_apply, pay2_apply x0 p r hr, hr]; rfl

theorem pay11_apply : k0_pay11 x0 (ix2 p (0 : Fin 1)) = BitVec.ofNat 32 ((i0w (r : EReal)).toNat % 16) := by
  unfold k0_pay11
  rw [shapeCast_a_a1_apply]
  show IntOp.andi (k0_pay2 x0 (ix1 p)) 15#32 = _
  rw [pay2_apply x0 p r hr, and15]

theorem pay12_apply : k0_pay12 x0 (ix2 p (0 : Fin 1)) = BitVec.ofNat 32 ((i1w (r : EReal)).toNat % 16) := by
  unfold k0_pay12
  rw [shapeCast_a_a1_apply]
  show IntOp.andi (k0_pay3 x0 (ix1 p)) 15#32 = _
  rw [pay3_apply x0 p r hr, and15]

end Scalars

/-! ## The stored block -/

section Body
variable (c : Dev nD) (i : grid0.Coords) (arg1 : Memref sig .tc .vmem S1024 .f32) (harg1 : arg1.IsWhole)
  (arg2 : Memref sig .tc .vmem S4096x256 .bf16) (harg2 : arg2.IsWhole) (arg3 : Memref sig .tc .vmem S1024x16 .f32) (harg3 : arg3.IsWhole)
  (x0 : Vec Ideal S1024 .f32) (x1 : Vec Ideal S4096x256 .bf16)

/-- What the one store of the body leaves in the result block: the blend term over the accumulators after the eight trips. -/
theorem out_eq_stored :
    out0_A_2 c i arg1 harg1 arg2 harg2 arg3 harg3 x0 x1
      = stored (k0_pay4 x0)
          (st_k0_t1 (F := Ideal) Variants.none c none i arg1 harg1 arg2 harg2 arg3 harg3 x0 (harg2.unread x1) (k0_pay5, k0_pay6) 8).1
          (st_k0_t1 (F := Ideal) Variants.none c none i arg1 harg1 arg2 harg2 arg3 harg3 x0 (harg2.unread x1) (k0_pay5, k0_pay6) 8).2
          (k0_pay11 x0) (k0_pay12 x0) := by
  unfold out0_A_2
  rw [View.read_writes_eq_canon _ _ _ (cover0_A_2 c i arg1 harg1 arg2 harg2 arg3 harg3 x0 x1)]
  unfold kernelRun0_A
  dsimp only
  sl_unfold_words
  rw [View.canon_unit_zero (by funext a; match a with | ⟨0, _⟩ => rfl | ⟨1, _⟩ => rfl)]
  have hld : View.ld x0 (Rect.unit (s := S1024) ![0] S1024.size inb_S1024_S1024_0) = x0 :=
    View.ld_unit_zero (S := S1024) (off := ![0]) (by funext a; match a with | ⟨0, _⟩ => rfl) inb_S1024_S1024_0 x0
  simp only [View.readAt_eq_ld, harg1.read_unread]
  rw [hld]
  have ht : Scf.trips (0#32) (Scalar.addi 0#32 8#32) 1#32 = 8 := by decide
  rw [ht]
  rfl

/-- ENTRY `(p, cc)` OF THE STORED BLOCK, for a finite coordinate: the two packed-table entries of the sample's texels,
    blended with the clamped weight. -/
theorem body_entry (p : Fin 1024) (cc : Fin 16) (r : ℝ) (hr : x0 (ix1 p) = (r : EReal)) :
    out0_A_2 c i arg1 harg1 arg2 harg2 arg3 harg3 x0 x1 (ix2 p cc)
      = x1 (ix2 (row4096 ((i0w (r : EReal)).toNat / 16)) (lane (16 * ((i0w (r : EReal)).toNat % 16)) cc)) * (1 - wgtK (r : EReal))
        + x1 (ix2 (row4096 ((i1w (r : EReal)).toNat / 16)) (lane (16 * ((i1w (r : EReal)).toNat % 16)) cc)) * wgtK (r : EReal) := by
  have h0 := i0w_lt r
  have h1 := i1w_lt r
  rw [out_eq_stored, stored_apply, pay11_apply x0 p r hr, pay12_apply x0 p r hr, pay4_apply x0 p r hr, ofBits_one,
    pick_eq _ _ (Nat.mod_lt _ (by decide)), pick_eq _ _ (Nat.mod_lt _ (by decide))]
  have e0 : (IntOp.shrsi .vector (k0_pay2 x0 (ix1 p)) 4#32).toNat = (i0w (r : EReal)).toNat / 16 := by
    rw [pay2_apply x0 p r hr, shr4_toNat _ h0]
  have e1 : (IntOp.shrsi .vector (k0_pay3 x0 (ix1 p)) 4#32).toNat = (i1w (r : EReal)).toNat / 16 := by
    rw [pay3_apply x0 p r hr, shr4_toNat _ h1]
  rw [loop_fst Variants.none c none i arg1 harg1 arg2 harg2 arg3 harg3 x0 x1 p _ (by rw [e0]; omega),
    loop_snd Variants.none c none i arg1 harg1 arg2 harg2 arg3 harg3 x0 x1 p _ (by rw [e1]; omega), e0, e1]

end Body

end Cert.Sampler.K

end
-- ==== Proof.Packed.lean ====
/-
  The packed texture: sixteen texture rows side by side in one row of 256 lanes.

  The texture [65536, 16] read in row-major order under the shape [4096, 256] puts texel b (a row of 16 channels)
  in packed row b / 16, at lanes 16 · (b mod 16) … 16 · (b mod 16) + 15: entry (b, c) of the texture and entry
  (b / 16, 16 · (b mod 16) + c) of the packed table have the same row-major position 16 · b + c.
-/
import proofs.«109323_j37383395344605_2_alg».proof.Proof.Spec

noncomputable section

namespace Cert.Sampler.Arr

open Idealize.ShloMosaic Idealize.ShloMosaic.ValueIdx Cert.Sampler

/-- The packed row of texel word b. -/
def prow (b : BitVec 32) : Fin 4096 := ⟨(b.toNat / 16) % 4096, Nat.mod_lt _ (by decide)⟩

/-- The lane of channel cc of texel word b in its packed row. -/
def pcol (b : BitVec 32) (cc : Fin 16) : Fin 256 :=
  ⟨16 * (b.toNat % 16) + cc.val, by have := cc.isLt; have := Nat.mod_lt b.toNat (show 0 < 16 by decide); omega⟩

/-- For a texel word below 65536, the packed position of (b, cc) is the texture's row-major position 16 · b + cc. -/
theorem packed_pos (b : BitVec 32) (hb : b.toNat < 65536) (cc : Fin 16) :
    16 * (rowOf b).val + cc.val = 256 * (prow b).val + (pcol b cc).val := by
  show 16 * (b.toNat % 65536) + cc.val = 256 * ((b.toNat / 16) % 4096) + (16 * (b.toNat % 16) + cc.val)
  omega

/-- A table that holds the texture in row-major order under [4096, 256] holds, at the packed position of a texel word
    below 65536, that texel's channel. -/
theorem packed_entry (X : SX.Idx → EReal) (x1 : (⟨2, ![4096, 256]⟩ : Shape).Idx → EReal)
    (hx1 : ∀ (r : Fin 4096) (l : Fin 256) (k : SX.Idx), 16 * (k 0).val + (k 1).val = 256 * r.val + l.val → x1 (ix2 r l) = X k)
    (b : BitVec 32) (hb : b.toNat < 65536) (cc : Fin 16) :
    x1 (ix2 (prow b) (pcol b cc)) = X (ix2 (rowOf b) cc) :=
  hx1 (prow b) (pcol b cc) (ix2 (rowOf b) cc) (packed_pos b hb cc)

end Cert.Sampler.Arr

end
-- ==== Proof.KPoint.lean ====
/-
  The stored entry in the packed table's own coordinates: texel `b` sits in packed row `b / 16` at lanes
  `16 (b mod 16) …`, so the entry `(p, cc)` of a grid point's block is the blend of the packed entries of the sample's two
  texels, for every sample whose coordinate is finite.
-/
import proofs.«109323_j37383395344605_2_alg».proof.Proof.KBody
import proofs.«109323_j37383395344605_2_alg».proof.Proof.Packed

set_option maxRecDepth 16384

noncomputable section

namespace Cert.Sampler.K

open Cert.KernelIdeal Cert.KernelIdeal.Gen Idealize.ShloMosaic Idealize.ShloMosaic.ValueIdx Idealize.ShloMosaic.TcCoe Idealize.SL.Sem
open Cert.Sampler.Arr

theorem row_packed (b : BitVec 32) : row4096 (b.toNat / 16) = prow b := rfl

theorem lane_packed (b : BitVec 32) (cc : Fin 16) : lane (16 * (b.toNat % 16)) cc = pcol b cc := by
  apply Fin.ext
  show (16 * (b.toNat % 16) + cc.val) % 256 = 16 * (b.toNat % 16) + cc.val
  have := cc.isLt
  have := Nat.mod_lt b.toNat (show 0 < 16 by decide)
  omega

/-- The body at any grid point, any staging buffers and any table contents, for finite coordinates. -/
theorem body_packed (c : Dev nD) (i : grid0.Coords) (arg1 : Memref sig .tc .vmem S1024 .f32) (harg1 : arg1.IsWhole)
    (arg2 : Memref sig .tc .vmem S4096x256 .bf16) (harg2 : arg2.IsWhole) (arg3 : Memref sig .tc .vmem S1024x16 .f32) (harg3 : arg3.IsWhole)
    (x0 : Vec Ideal S1024 .f32) (x1 : Vec Ideal S4096x256 .bf16) (hx0 : ∀ j, ∃ r : ℝ, x0 j = (r : EReal)) (p : Fin 1024) (cc : Fin 16) :
    out0_A_2 (F := Ideal) c i arg1 harg1 arg2 harg2 arg3 harg3 x0 x1 (ix2 p cc)
      = x1 (ix2 (prow (i0w (x0 (ix1 p)))) (pcol (i0w (x0 (ix1 p))) cc)) * (1 - wgtK (x0 (ix1 p)))
        + x1 (ix2 (prow (i1w (x0 (ix1 p)))) (pcol (i1w (x0 (ix1 p))) cc)) * wgtK (x0 (ix1 p)) := by
  obtain ⟨r, hr⟩ := hx0 (ix1 p)
  rw [body_entry c i arg1 harg1 arg2 harg2 arg3 harg3 x0 x1 p cc r hr, hr, row_packed, row_packed, lane_packed, lane_packed]

end Cert.Sampler.K

end
-- ==== Proof.KArray.lean ====
/-
  From one grid point's block to the whole result array of the kernel.

  The grid has 4096 points. Point t reads coordinates 1024 · t … 1024 · t + 1023, reads the whole packed texture, and writes
  rows 1024 · t … 1024 · t + 1023 of the result. The packed texture is the texture's entries in row-major order under the
  shape [4096, 256], so texel word b (below 65536), channel c, sits at packed row b / 16, lane 16 · (b mod 16) + c.
  Given what the body computes from its two blocks at one point (the hypothesis `BodyAt`), entry (p, c) of the block
  point t writes is the fetch of the specification at sample 1024 · t + p, channel c: the packed positions name the
  texture rows of the two texel words, and blending with the weight of the clamped coordinate equals blending with the
  weight of the coordinate itself on finite textures. The 4096 blocks tile the result, so the result array is the fetch.
-/
import proofs.«109323_j37383395344605_2_alg».proof.Proof.Gen.KernelIdeal.Value
import proofs.«109323_j37383395344605_2_alg».proof.Proof.Spec
import proofs.«109323_j37383395344605_2_alg».proof.Proof.Packed
import Idealize.ShloMosaic.Lib.Pipeline.Value
import Idealize.ShloMosaic.Lib.ValueIdx

noncomputable section

namespace Cert.Sampler.Arr

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Value Cert.Sampler

/-- WHAT THE BODY COMPUTES AT ONE POINT, entry by entry, from a block of finite coordinates and any packed table:
    the two packed entries of the left and right texel words blended with the weight of the clamped coordinate. -/
def BodyAt : Prop :=
  ∀ (c : Dev nD) (i : grid0.Coords) (arg1 : Memref sig .tc .vmem S1024 .f32) (harg1 : arg1.IsWhole)
    (arg2 : Memref sig .tc .vmem S4096x256 .bf16) (harg2 : arg2.IsWhole)
    (arg3 : Memref sig .tc .vmem S1024x16 .f32) (harg3 : arg3.IsWhole)
    (x0 : Vec Ideal S1024 .f32) (x1 : Vec Ideal S4096x256 .bf16), (∀ j, ∃ r : ℝ, x0 j = (r : EReal)) →
    ∀ (p : Fin 1024) (cc : Fin 16),
      out0_A_2 (F := Ideal) c i arg1 harg1 arg2 harg2 arg3 harg3 x0 x1 (ix2 p cc)
        = x1 (ix2 (prow (i0w (x0 (ix1 p)))) (pcol (i0w (x0 (ix1 p))) cc)) * (1 - wgtK (x0 (ix1 p)))
          + x1 (ix2 (prow (i1w (x0 (ix1 p)))) (pcol (i1w (x0 (ix1 p))) cc)) * wgtK (x0 (ix1 p))

/-! ## One point, over any blocks -/

/-- Entry (p, cc) of what one point leaves, when its coordinate block is finite and its table block holds the finite
    texture X in row-major order: the blend of X's rows at the two texel words with the weight of the coordinate. -/
theorem point_entry (hbody : BodyAt) (c : Dev nD) (i : grid0.Coords) (arg1 : Memref sig .tc .vmem S1024 .f32)
    (harg1 : arg1.IsWhole) (arg2 : Memref sig .tc .vmem S4096x256 .bf16) (harg2 : arg2.IsWhole)
    (arg3 : Memref sig .tc .vmem S1024x16 .f32) (harg3 : arg3.IsWhole)
    (x0 : Vec Ideal S1024 .f32) (x1 : Vec Ideal S4096x256 .bf16) (X : SX.Idx → EReal)
    (hx0 : ∀ j, ∃ r : ℝ, x0 j = (r : EReal)) (hX : ∀ k, ∃ q : ℝ, X k = (q : EReal))
    (hx1 : ∀ (r : Fin 4096) (l : Fin 256) (k : SX.Idx), 16 * (k 0).val + (k 1).val = 256 * r.val + l.val → x1 (ix2 r l) = X k)
    (p : Fin 1024) (cc : Fin 16) :
    out0_A_2 (F := Ideal) c i arg1 harg1 arg2 harg2 arg3 harg3 x0 x1 (ix2 p cc)
      = X (ix2 (rowOf (i0w (x0 (ix1 p)))) cc) * (1 - wgt (x0 (ix1 p))) + X (ix2 (rowOf (i1w (x0 (ix1 p)))) cc) * wgt (x0 (ix1 p)) := by
  rw [hbody c i arg1 harg1 arg2 harg2 arg3 harg3 x0 x1 hx0 p cc]
  obtain ⟨r, hr⟩ := hx0 (ix1 p)
  rw [hr, packed_entry X x1 hx1 _ (i0w_lt r), packed_entry X x1 hx1 _ (i1w_lt r)]
  exact fetch_clamp X hX r cc

/-- The fetch at (u, cc), its index's coordinates read off. -/
theorem G_apply (X : SX.Idx → EReal) (P : SU.Idx → EReal) (u : Fin 4194304) (cc : Fin 16) :
    G X P (ix2 u cc)
      = X (ix2 (rowOf (i0w (P (ix1 u)))) cc) * (1 - wgt (P (ix1 u))) + X (ix2 (rowOf (i1w (P (ix1 u)))) cc) * wgt (P (ix1 u)) :=
  rfl

/-! ## The blocks at a point -/

section Blocks
variable (m : (ℓ : Loc nD τ sig) → Buf (Elt Ideal) ℓ) (ρ : Dev nD → PrngReg)

/-- The coordinate window's block index at point t is t (decided over the 4096 points). -/
theorem idx_par : ∀ t : Fin cfg0.N, win0_0.index t ⟨0, by decide⟩ = t.val :=
  (by decide +kernel : ∀ t : Fin grid0.N, win0_0.index t ⟨0, by decide⟩ = t.val)

/-- The packed table is one whole block at every point. -/
theorem idx_tbl : ∀ t : Fin cfg0.N, win0_1.index t ⟨0, by decide⟩ = 0 ∧ win0_1.index t ⟨1, by decide⟩ = 0 :=
  (by decide +kernel : ∀ t : Fin grid0.N, win0_1.index t ⟨0, by decide⟩ = 0 ∧ win0_1.index t ⟨1, by decide⟩ = 0)

/-- The result window's block index on the channel axis is 0 at every point. -/
theorem idx_out1 : ∀ t : Fin cfg0.N, win0_2.index t ⟨1, by decide⟩ = 0 :=
  (by decide +kernel : ∀ t : Fin grid0.N, win0_2.index t ⟨1, by decide⟩ = 0)

/-- Entry p of the coordinate block at point t is coordinate 1024 · t + p. -/
theorem par_apply (c : Dev nD) (t : Fin cfg0.N) (p : Fin 1024) (k : S4194304.Idx) (hk : (k 0).val = 1024 * t.val + p.val) :
    (iblk m c 0 t : Vec Ideal S1024 .f32) (ix1 p) = (m ((c : Thread nD τ).loc main_arg1) : S4194304.Idx → EReal) k := by
  have hi := idx_par t
  unfold iblk
  rw [View.read_apply]
  show V m c main_arg1 _ = m (c.tc.loc main_arg1) _
  rw [V_main_arg1]
  congr 1
  funext a
  apply Fin.ext
  match a with
  | ⟨0, _⟩ => show win0_0.index t 0 * 1024 + 1 * p.val = (k 0).val; rw [hk]; have : win0_0.index t 0 = t.val := hi; omega

/-- The packed table as the region finds it: the texture's entries in row-major order under the shape [4096, 256]
    (the change of format is the identity on extended reals). -/
theorem tbl_eq (c : Dev nD) :
    (V m c main_v1 : S4096x256.Idx → EReal)
      = shapeCast S4096x256 (m ((c : Thread nD τ).loc main_arg0) : S65536x16.Idx → EReal) Facts₀.shapeCasts_S65536x16_S4096x256 := by
  dsimp only [Gen.V, Gen.hostOps0]
  after_results
  rfl

/-- Entry (r, l) of the table block at any point is the texture's entry at the same row-major position. -/
theorem tbl_apply (c : Dev nD) (t : Fin cfg0.N) (r : Fin 4096) (l : Fin 256) (k : S65536x16.Idx)
    (hk : 16 * (k 0).val + (k 1).val = 256 * r.val + l.val) :
    (iblk m c 1 t : Vec Ideal S4096x256 .bf16) (ix2 r l) = (m ((c : Thread nD τ).loc main_arg0) : S65536x16.Idx → EReal) k := by
  obtain ⟨h0, h1⟩ := idx_tbl t
  unfold iblk
  rw [View.read_apply]
  have he : ((cfg0.win 1).blk t).view.emb (ix2 r l) = (ix2 r l : S4096x256.Idx) := by
    funext a
    apply Fin.ext
    match a with
    | ⟨0, _⟩ => show win0_1.index t 0 * 4096 + 1 * r.val = r.val; have : win0_1.index t 0 = 0 := h0; omega
    | ⟨1, _⟩ => show win0_1.index t 1 * 256 + 1 * l.val = l.val; have : win0_1.index t 1 = 0 := h1; omega
  show V m c main_v1 (((cfg0.win 1).blk t).view.emb (ix2 r l)) = _
  rw [he, tbl_eq]
  refine shapeCast_apply _ _ _ k ?_
  rw [Shape.rowMajor_val_two, Shape.rowMajor_val_two]
  show (k 0).val * 16 + (k 1).val = r.val * 256 + l.val
  omega

/-- Entry (p, cc) of the result window's block at point t sits in the result at row 1024 · t + p, channel cc. -/
theorem out_emb (t : Fin cfg0.N) (p : Fin 1024) (cc : Fin 16) (u : Fin 4194304) (hu : u.val = 1024 * t.val + p.val) :
    ((cfg0.win 2).blk t).view.emb (ix2 p cc) = (ix2 u cc : S4194304x16.Idx) := by
  have hi := idx_pt2 t
  funext a
  apply Fin.ext
  match a with
  | ⟨0, _⟩ => show win0_2.index t 0 * 1024 + 1 * p.val = u.val; rw [hu]; have : win0_2.index t 0 = t.val := hi; omega
  | ⟨1, _⟩ =>
    show win0_2.index t 1 * 16 + 1 * cc.val = cc.val
    have : win0_2.index t 1 = 0 := idx_out1 t
    omega

end Blocks

/-! ## The result array -/

section Array
variable (m : (ℓ : Loc nD τ sig) → Buf (Elt Ideal) ℓ) (ρ : Dev nD → PrngReg)

/-- WHAT POINT t WRITES BACK is block t of the fetch of the two argument arrays, when both are finite. -/
theorem flushed_eq (hbody : BodyAt) (c : Dev nD)
    (hX : ∀ k, ∃ q : ℝ, (m ((c : Thread nD τ).loc main_arg0) : S65536x16.Idx → EReal) k = (q : EReal))
    (hP : ∀ k, ∃ r : ℝ, (m ((c : Thread nD τ).loc main_arg1) : S4194304.Idx → EReal) k = (r : EReal))
    (t : Fin cfg0.N) :
    (dats m 0 c).flushed 2 t
      = ((cfg0.win 2).blk t).view.read (Elt Ideal)
          (G (m ((c : Thread nD τ).loc main_arg0)) (m ((c : Thread nD τ).loc main_arg1))) := by
  rw [flushed2_A]
  funext j
  obtain ⟨p, cc, rfl⟩ : ∃ (p : Fin 1024) (cc : Fin 16), j = ix2 p cc := ⟨j 0, j 1, eq_ix2 j⟩
  rw [View.read_apply]
  have hN : cfg0.N = 4096 := N_0
  have ht : t.val < cfg0.N := t.isLt
  have hu : 1024 * t.val + p.val < 4194304 := by have := p.isLt; omega
  rw [out_emb t p cc ⟨1024 * t.val + p.val, hu⟩ rfl, G_apply]
  have e0 : (iblk m c 0 t : Vec Ideal S1024 .f32) (ix1 p)
      = (m ((c : Thread nD τ).loc main_arg1) : S4194304.Idx → EReal) (ix1 ⟨1024 * t.val + p.val, hu⟩) :=
    par_apply m c t p _ rfl
  rw [← e0]
  have hx0 : ∀ j : S1024.Idx, ∃ r : ℝ, (iblk m c 0 t : Vec Ideal S1024 .f32) j = (r : EReal) := by
    intro j
    obtain ⟨q, rfl⟩ : ∃ q : Fin 1024, j = ix1 q := ⟨j 0, eq_ix1 j⟩
    have hq : 1024 * t.val + q.val < 4194304 := by have := q.isLt; omega
    rw [par_apply m c t q (ix1 ⟨1024 * t.val + q.val, hq⟩) rfl]
    exact hP _
  exact point_entry hbody c (grid0.coords t) (ms0_0 t) (hs0_0 t) (ms0_1 t) (hs0_1 t) (ms0_2 t) (hs0_2 t)
    (iblk m c 0 t) (iblk m c 1 t) (m ((c : Thread nD τ).loc main_arg0)) hx0 hX
    (fun r l k hk => tbl_apply m c t r l k hk) p cc

/-- An index of the result is in point t's block iff each coordinate is in the block's range on its axis. -/
theorem mem_blk (t : Fin cfg0.N) (i : S4194304x16.Idx) :
    i ∈ ((cfg0.win 2).blk t).view.set ↔ ∀ a : Fin 2, win0_2.index t a * S1024x16.size a ≤ (i a).val
      ∧ (i a).val < win0_2.index t a * S1024x16.size a + S1024x16.size a := by
  show i ∈ ((View.whole main_v2).slice (win0_2.rect t)).set ↔ _
  rw [View.set_slice_whole, Rect.mem_set_unit]
  exact Iff.rfl

/-- Every index of the result is in the block of the point its row falls to: row / 1024. -/
theorem cover (i : S4194304x16.Idx) :
    ∃ t : Fin cfg0.N, (cfg0.win 2).flush t = true ∧ i ∈ ((cfg0.win 2).blk t).view.set := by
  have hi0 : (i 0).val < 4194304 := (i 0).isLt
  have hi1 : (i 1).val < 16 := (i 1).isLt
  have hN : cfg0.N = 4096 := N_0
  obtain ⟨t, ht⟩ : ∃ t : Fin cfg0.N, t.val = (i 0).val / 1024 := ⟨⟨(i 0).val / 1024, by rw [hN]; omega⟩, rfl⟩
  refine ⟨t, flush0_2 t, ?_⟩
  rw [mem_blk]
  have h0 : win0_2.index t 0 = t.val := idx_pt2 t
  have h1 : win0_2.index t 1 = 0 := idx_out1 t
  intro a
  match a with
  | ⟨0, _⟩ => show win0_2.index t 0 * 1024 ≤ (i 0).val ∧ (i 0).val < win0_2.index t 0 * 1024 + 1024; omega
  | ⟨1, _⟩ => show win0_2.index t 1 * 16 ≤ (i 1).val ∧ (i 1).val < win0_2.index t 1 * 16 + 16; omega

/-- THE RESULT ARRAY after the run is the fetch of the two argument arrays. -/
theorem final (hbody : BodyAt) (c : Dev nD)
    (hX : ∀ k, ∃ q : ℝ, (m ((c : Thread nD τ).loc main_arg0) : S65536x16.Idx → EReal) k = (q : EReal))
    (hP : ∀ k, ∃ r : ℝ, (m ((c : Thread nD τ).loc main_arg1) : S4194304.Idx → EReal) k = (r : EReal)) :
    (dats m 0 c).arrAt 2 cfg0.N = G (m ((c : Thread nD τ).loc main_arg0)) (m ((c : Thread nD τ).loc main_arg1)) :=
  (dats m 0 c).arrAt_eq_of_cover 2 (G (m ((c : Thread nD τ).loc main_arg0)) (m ((c : Thread nD τ).loc main_arg1)))
    (fun t _ => flushed_eq m hbody c hX hP t) cover

/-- The kernel's run, read: from finite argument arrays the result array ends at the fetch, the arguments unchanged. -/
theorem run (hbody : BodyAt)
    (hX : ∀ (c : Dev nD) k, ∃ q : ℝ, (m ((c : Thread nD τ).loc main_arg0) : S65536x16.Idx → EReal) k = (q : EReal))
    (hP : ∀ (c : Dev nD) k, ∃ r : ℝ, (m ((c : Thread nD τ).loc main_arg1) : S4194304.Idx → EReal) k = (r : EReal)) :
    θ_run defs (onTc (τ := τ) (main (F := Ideal))) ⟨m, fun _ => 0, ρ⟩ fun r => ∀ c : Dev nD,
      r.2.mem ((c : Thread nD τ).loc main_v2) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m hbody c (hX c) (hP c)), (h c).2⟩) (run_blocks m ρ)

end Array

end Cert.Sampler.Arr

end
-- ==== Proof.lean ====
/-
  A one-dimensional linear texture sampler, three ways.

  The reference fetches, for each of 4194304 samples with coordinate `x`, the two texels `i₀ = clip ⌊65535 x⌋`,
  `i₁ = clip (i₀ + 1)` of a texture of 65536 rows by 16 channels with a gather, and blends them with the weight
  `w = 65535 x − i₀`: `X[i₀] (1 − w) + X[i₁] w`.

  The kernel works on blocks of 1024 samples against the texture repacked as 4096 rows of 256 lanes (sixteen texture rows
  side by side).  It clamps the scaled coordinate at 65535 first, finds each texel's packed row `i / 16` and lane group
  `i mod 16`, fetches the packed row by a one-hot matrix product accumulated over eight chunks of 512 packed rows, keeps
  the sixteen lanes of the texel's group by a sixteen-way masked sum, and blends with the weight of the clamped coordinate.

  Over the extended reals, for finite inputs, the two agree: a one-hot sum is the selected entry (zero times anything is
  zero, and adding zeros changes nothing); the packed entry `(i / 16, 16 (i mod 16) + c)` is the texture's `(i, c)`; the
  clamp moves neither texel; and where the clamp is active both texels are the last row `a`, so both blends are
  `a (1 − w) + a w = a` whatever the finite weight.  Finiteness of the inputs is used exactly there (and to know the
  texel words are small non-negative numbers).

  The three frame claims are the generated frame certificates and the reference's generated run; the idealization rewrote
  nothing, so `preserves` is trivial.
-/
import proofs.«109323_j37383395344605_2_alg».proof.Defs
import proofs.«109323_j37383395344605_2_alg».proof.Proof.Gen.Kernel
import proofs.«109323_j37383395344605_2_alg».proof.Proof.Gen.Kernel.Skeleton
import proofs.«109323_j37383395344605_2_alg».proof.Proof.Gen.Kernel.Loops
import proofs.«109323_j37383395344605_2_alg».proof.Proof.Gen.Kernel.Launch
import proofs.«109323_j37383395344605_2_alg».proof.Proof.Gen.Kernel.Points
import proofs.«109323_j37383395344605_2_alg».proof.Proof.Gen.Kernel.Frame
import proofs.«109323_j37383395344605_2_alg».proof.Proof.Gen.KernelIdeal
import proofs.«109323_j37383395344605_2_alg».proof.Proof.Gen.KernelIdeal.Skeleton
import proofs.«109323_j37383395344605_2_alg».proof.Proof.Gen.KernelIdeal.Loops
import proofs.«109323_j37383395344605_2_alg».proof.Proof.Gen.KernelIdeal.Launch
import proofs.«109323_j37383395344605_2_alg».proof.Proof.Gen.KernelIdeal.Points
import proofs.«109323_j37383395344605_2_alg».proof.Proof.Gen.KernelIdeal.Frame
import proofs.«109323_j37383395344605_2_alg».proof.Proof.Gen.ReferenceIdeal
import proofs.«109323_j37383395344605_2_alg».proof.Proof.Gen.KernelIdeal.Value
import proofs.«109323_j37383395344605_2_alg».proof.Proof.Gen.ReferenceIdeal.Run
import proofs.«109323_j37383395344605_2_alg».proof.Proof.Gen.ReferenceIdeal.Read
import proofs.«109323_j37383395344605_2_alg».proof.Proof.Gen.Pre_finite_inputs
import proofs.«109323_j37383395344605_2_alg».proof.Proof.Finite
import proofs.«109323_j37383395344605_2_alg».proof.Proof.RefIsG
import proofs.«109323_j37383395344605_2_alg».proof.Proof.KPoint
import proofs.«109323_j37383395344605_2_alg».proof.Proof.KArray
import Idealize.ShloMosaic.Adequacy
import Idealize.ShloMosaic.Init

noncomputable section

namespace Cert.Proof

open Idealize.ShloMosaic Idealize.ShloMosaic.TcCoe Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the fetch `G` of the argument arrays: the kernel block by block, the reference operation by
    operation, the arguments being finite by the precondition. -/
theorem algebraic : Cert.algebraic_KernelIdeal_ReferenceIdeal := by
  intro m ρ m' ρ' hpre hagree
  have hfin := fun c : Dev Cert.KernelIdeal.nD => Cert.Sampler.Finite.finite_of_pre _ _ (hpre c)
  refine ⟨fun c => Cert.Sampler.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.Sampler.Arr.run m ρ Cert.Sampler.K.body_packed (fun c => (hfin c).1) (fun c => (hfin c).2), ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v31_eq,
    Cert.Sampler.Ref.ref_eq _ _ (by rw [(hagree c).2]; exact (hfin c).2), (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
